-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S2x3200000 : Shape := ⟨2, ![2, 3200000]⟩
abbrev S1433x67 : Shape := ⟨2, ![1433, 67]⟩
abbrev S67 : Shape := ⟨1, ![67]⟩
abbrev S67x7 : Shape := ⟨2, ![67, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x67 : S_.BroadcastsInDim S1433x67 (![] : Fin 0 → Fin S1433x67.rank)
  reducesTo_S1433x67_S_d0_1 : S1433x67.ReducesTo [0, 1] S_
  bcast_S_S67 : S_.BroadcastsInDim S67 (![] : Fin 0 → Fin S67.rank)
  reducesTo_S67_S_d0 : S67.ReducesTo [0] S_
  bcast_S_S67x7 : S_.BroadcastsInDim S67x7 (![] : Fin 0 → Fin S67x7.rank)
  reducesTo_S67x7_S_d0_1 : S67x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S67x7 1) : IVec S_ 1 :=
  let main_c_5 : IVec S_ 1 := constantI S_ 1 1#1
  let main_v17 : IVec S_ 1 := (fun x v => Host.reduce IntOp.andi x v reducesTo_S67x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x1433 .f32) (main_arg1 : IVec S2x3200000 32) (main_arg2 : FVec F S1433x67 .f32) (main_arg3 : FVec F S67 .f32) (main_arg4 : FVec F S67x7 .f32) (main_arg5 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x67 .f32 := Host.absf main_arg2
  let main_cst_0 : FVec F S_ .f32 := constant S_ .f32 0x7F800000#32
  let main_v5 : FVec F S1433x67 .f32 := broadcastInDim S1433x67 ![] bcast_S_S1433x67 main_cst_0
  let main_v6 : IVec S1433x67 1 := cmpf .olt main_v4 main_v5
  let main_c_1 : IVec S_ 1 := constantI S_ 1 1#1
  let main_v7 : IVec S_ 1 := (fun x v => Host.reduce IntOp.andi x v reducesTo_S1433x67_S_d0_1 h_S_) main_v6 main_c_1
  let main_v8 : IVec S_ 1 := andi main_v3 main_v7
  let main_v9 : FVec F S67 .f32 := Host.absf main_arg3
  let main_cst_2 : FVec F S_ .f32 := constant S_ .f32 0x7F800000#32
  let main_v10 : FVec F S67 .f32 := broadcastInDim S67 ![] bcast_S_S67 main_cst_2
  let main_v11 : IVec S67 1 := cmpf .olt main_v9 main_v10
  let main_c_3 : IVec S_ 1 := constantI S_ 1 1#1
  let main_v12 : IVec S_ 1 := (fun x v => Host.reduce IntOp.andi x v reducesTo_S67_S_d0 h_S_) main_v11 main_c_3
  let main_v13 : IVec S_ 1 := andi main_v8 main_v12
  let main_v14 : FVec F S67x7 .f32 := Host.absf main_arg4
  let main_cst_4 : FVec F S_ .f32 := constant S_ .f32 0x7F800000#32
  let main_v15 : FVec F S67x7 .f32 := broadcastInDim S67x7 ![] bcast_S_S67x7 main_cst_4
  let main_v16 : IVec S67x7 1 := cmpf .olt main_v14 main_v15
  fn_part1 (F := F) main_arg5 main_v13 main_v16
-- ==== Kernel.lean ====
abbrev S100000x1433 : Shape := ⟨2, ![100000, 1433]⟩
abbrev S2x3200000 : Shape := ⟨2, ![2, 3200000]⟩
abbrev S1433x67 : Shape := ⟨2, ![1433, 67]⟩
abbrev S67 : Shape := ⟨1, ![67]⟩
abbrev S67x7 : Shape := ⟨2, ![67, 7]⟩
abbrev S7 : Shape := ⟨1, ![7]⟩
abbrev S100000x67 : Shape := ⟨2, ![100000, 67]⟩
abbrev S2000x1433 : Shape := ⟨2, ![2000, 1433]⟩
abbrev S2000x67 : Shape := ⟨2, ![2000, 67]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x67 : Shape := ⟨2, ![3300000, 67]⟩
abbrev S1x67 : Shape := ⟨2, ![1, 67]⟩
abbrev S10000x67 : Shape := ⟨2, ![10000, 67]⟩
abbrev S100000x7 : Shape := ⟨2, ![100000, 7]⟩
abbrev S10000x7 : Shape := ⟨2, ![10000, 7]⟩
abbrev S3300000x7 : Shape := ⟨2, ![3300000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 126
  | .vmem => 18
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x67, .f32⟩
  | .hbm, ⟨3, _⟩ => ⟨S67, .f32⟩
  | .hbm, ⟨4, _⟩ => ⟨S67x7, .f32⟩
  | .hbm, ⟨5, _⟩ => ⟨S7, .f32⟩
  | .hbm, ⟨6, _⟩ => ⟨S100000x67, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x67, .f32⟩
  | .hbm, ⟨55, _⟩ => ⟨S3300000x1, .f32⟩
  | .hbm, ⟨56, _⟩ => ⟨S3300000x67, .f32⟩
  | .hbm, ⟨57, _⟩ => ⟨S3300000x67, .f32⟩
  | .hbm, ⟨58, _⟩ => ⟨S_, .f32⟩
  | .hbm, ⟨59, _⟩ => ⟨S100000x67, .f32⟩
  | .hbm, ⟨60, _⟩ => ⟨S3300000x1, .i32⟩
  | .hbm, ⟨61, _⟩ => ⟨S100000x67, .f32⟩
  | .hbm, ⟨62, _⟩ => ⟨S1x67, .f32⟩
  | .hbm, ⟨63, _⟩ => ⟨S100000x67, .f32⟩
  | .hbm, ⟨64, _⟩ => ⟨S100000x67, .f32⟩
  | .hbm, ⟨65, _⟩ => ⟨S100000x67, .f32⟩
  | .hbm, ⟨66, _⟩ => ⟨S100000x7, .f32⟩
  | .hbm, ⟨67, _⟩ => ⟨S100000, .i32⟩
  | .hbm, ⟨68, _⟩ => ⟨S1x3200000, .i32⟩
  | .hbm, ⟨69, _⟩ => ⟨S3200000, .i32⟩
  | .hbm, ⟨70, _⟩ => ⟨S3300000, .i32⟩
  | .hbm, ⟨71, _⟩ => ⟨S1x3200000, .i32⟩
  | .hbm, ⟨72, _⟩ => ⟨S3200000, .i32⟩
  | .hbm, ⟨73, _⟩ => ⟨S3300000, .i32⟩
  | .hbm, ⟨74, _⟩ => ⟨S_, .f32⟩
  | .hbm, ⟨75, _⟩ => ⟨S3300000, .f32⟩
  | .hbm, ⟨76, _⟩ => ⟨S_, .f32⟩
  | .hbm, ⟨77, _⟩ => ⟨S100000, .f32⟩
  | .hbm, ⟨78, _⟩ => ⟨S3300000x1, .i32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .i1⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x7, .f32⟩
  | .hbm, ⟨115, _⟩ => ⟨S3300000x1, .f32⟩
  | .hbm, ⟨116, _⟩ => ⟨S3300000x7, .f32⟩
  | .hbm, ⟨117, _⟩ => ⟨S3300000x7, .f32⟩
  | .hbm, ⟨118, _⟩ => ⟨S_, .f32⟩
  | .hbm, ⟨119, _⟩ => ⟨S100000x7, .f32⟩
  | .hbm, ⟨120, _⟩ => ⟨S3300000x1, .i32⟩
  | .hbm, ⟨121, _⟩ => ⟨S100000x7, .f32⟩
  | .hbm, ⟨122, _⟩ => ⟨S1x7, .f32⟩
  | .hbm, ⟨123, _⟩ => ⟨S100000x7, .f32⟩
  | .hbm, ⟨124, _⟩ => ⟨S100000x7, .f32⟩
  | .hbm, ⟨125, _⟩ => ⟨S100000x7, .f32⟩
  | .local _ .vmem, ⟨0, _⟩ => ⟨S2000x1433, .f32⟩
  | .local _ .vmem, ⟨1, _⟩ => ⟨S2000x1433, .f32⟩
  | .local _ .vmem, ⟨2, _⟩ => ⟨S1433x67, .f32⟩
  | .local _ .vmem, ⟨3, _⟩ => ⟨S2000x67, .f32⟩
  | .local _ .vmem, ⟨4, _⟩ => ⟨S2000x67, .f32⟩
  | .local _ .vmem, ⟨5, _⟩ => ⟨S10000x67, .f32⟩
  | .local _ .vmem, ⟨6, _⟩ => ⟨S10000x67, .f32⟩
  | .local _ .vmem, ⟨7, _⟩ => ⟨S10000x67, .f32⟩
  | .local _ .vmem, ⟨8, _⟩ => ⟨S10000x67, .f32⟩
  | .local _ .vmem, ⟨9, _⟩ => ⟨S10000x67, .f32⟩
  | .local _ .vmem, ⟨10, _⟩ => ⟨S10000x67, .f32⟩
  | .local _ .vmem, ⟨11, _⟩ => ⟨S67x7, .f32⟩
  | .local _ .vmem, ⟨12, _⟩ => ⟨S10000x7, .f32⟩
  | .local _ .vmem, ⟨13, _⟩ => ⟨S10000x7, .f32⟩
  | .local _ .vmem, ⟨14, _⟩ => ⟨S10000x7, .f32⟩
  | .local _ .vmem, ⟨15, _⟩ => ⟨S10000x7, .f32⟩
  | .local _ .vmem, ⟨16, _⟩ => ⟨S10000x7, .f32⟩
  | .local _ .vmem, ⟨17, _⟩ => ⟨S10000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_call1_v0 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_17 : Ref sig .tc := ⟨.hbm, 106, rfl⟩
abbrev main_v79 : Ref sig .tc := ⟨.hbm, 107, rfl⟩
abbrev main_v80 : Ref sig .tc := ⟨.hbm, 108, rfl⟩
abbrev main_c_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_19 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x67 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x67 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x67 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x67 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x67 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S67x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x7 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

class Facts₀ : Prop where
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x67_S1433x67_0_0 : ∀ a, (![0, 0] : Fin 2 → Nat) a + S1433x67.size a ≤ S1433x67.size a
  h_S1433x67 : 0 < S1433x67.numel
  inb_S2000x67_S2000x67_0_0 : ∀ a, (![0, 0] : Fin 2 → Nat) a + S2000x67.size a ≤ S2000x67.size a
  h_S2000x67 : 0 < S2000x67.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x67_0_1 : S3300000x1.BroadcastsInDim S3300000x67 (![0, 1] : Fin 2 → Fin S3300000x67.rank)
  bcast_S_S100000x67 : S_.BroadcastsInDim S100000x67 (![] : Fin 0 → Fin S100000x67.rank)
  bcast_S67_S1x67_1 : S67.BroadcastsInDim S1x67 (![1] : Fin 1 → Fin S1x67.rank)
  bcast_S1x67_S100000x67_0_1 : S1x67.BroadcastsInDim S100000x67 (![0, 1] : Fin 2 → Fin S100000x67.rank)
  inb_S10000x67_S10000x67_0_0 : ∀ a, (![0, 0] : Fin 2 → Nat) a + S10000x67.size a ≤ S10000x67.size a
  h_S10000x67 : 0 < S10000x67.numel
  shapeCasts_S10000x67_S10000x67 : S10000x67.ShapeCasts S10000x67
  inb_S67x7_S67x7_0_0 : ∀ a, (![0, 0] : Fin 2 → Nat) a + S67x7.size a ≤ S67x7.size a
  h_S67x7 : 0 < S67x7.numel
  inb_S10000x7_S10000x7_0_0 : ∀ a, (![0, 0] : Fin 2 → Nat) a + S10000x7.size a ≤ S10000x7.size a
  h_S10000x7 : 0 < S10000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  shapeCasts_S10000x7_S10000x7 : S10000x7.ShapeCasts S10000x7
  reduces_S10000x7_S10000 : S10000x7.Reduces [1] S10000
  shapeCasts_S10000_S10000x1 : S10000.ShapeCasts S10000x1
  broadcasts_S10000x1_S10000x7 : S10000x1.Broadcasts S10000x7
  dot_S2000x1433_S1433x67_S2000x67_1_0_0_1_n_n_wf : DotDims.WF S2000x1433 S1433x67 S2000x67 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x67_S3300000x1_S3300000x67_1_0_n_n_0_1_167_wf : GatherDims.WF S100000x67 S3300000x1 S3300000x67 [1] [0] [] [0] [] 1 ![1, 67]
  scatter_S100000x67_S3300000x1_S3300000x67_1_0_0_1_wf : ScatterDims.WF S100000x67 S3300000x1 S3300000x67 [1] [0] [0] 1
  dot_S10000x67_S67x7_S10000x7_1_0_0_1_n_n_wf : DotDims.WF S10000x67 S67x7 S10000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x67.size a ≤ S1433x67.size a
  hwx0_1 : ∀ i : grid0.Coords, EltTy.bits .f32 = 32 ∨ (Rect.block (s := S1433x67) S1433x67.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x67.size a ≤ S100000x67.size a
  hwx0_2 : ∀ i : grid0.Coords, EltTy.bits .f32 = 32 ∨ (Rect.block (s := S100000x67) S2000x67.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x67.size a ≤ S100000x67.size a
  hwx1_0 : ∀ i : grid1.Coords, EltTy.bits .f32 = 32 ∨ (Rect.block (s := S100000x67) S10000x67.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x67.size a ≤ S100000x67.size a
  hwx1_1 : ∀ i : grid1.Coords, EltTy.bits .f32 = 32 ∨ (Rect.block (s := S100000x67) S10000x67.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x67.size a ≤ S100000x67.size a
  hwx2_0 : ∀ i : grid2.Coords, EltTy.bits .f32 = 32 ∨ (Rect.block (s := S100000x67) S10000x67.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S67x7.size a ≤ S67x7.size a
  hwx2_1 : ∀ i : grid2.Coords, EltTy.bits .f32 = 32 ∨ (Rect.block (s := S67x7) S67x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x7.size a ≤ S100000x7.size a
  hwx2_2 : ∀ i : grid2.Coords, EltTy.bits .f32 = 32 ∨ (Rect.block (s := S100000x7) S10000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x7.size a ≤ S100000x7.size a
  hwx3_0 : ∀ i : grid3.Coords, EltTy.bits .f32 = 32 ∨ (Rect.block (s := S100000x7) S10000x7.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x7.size a ≤ S100000x7.size a
  hwx3_1 : ∀ i : grid3.Coords, EltTy.bits .f32 = 32 ∨ (Rect.block (s := S100000x7) S10000x7.size (cc3_transform_1 i) (hinb3_1 i)).WholeWords (EltTy.packing .f32)

variable [Facts₀]

def dot_S2000x1433_S1433x67_S2000x67_1_0_0_1_n_n : DotDims S2000x1433 S1433x67 S2000x67 where
  lhsContracting := [1]
  rhsContracting := [0]
  lhsNonContracting := [0]
  rhsNonContracting := [1]
  lhsBatch := []
  rhsBatch := []
  wf := dot_S2000x1433_S1433x67_S2000x67_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x67_S3300000x1_S3300000x67_1_0_n_n_0_1_167 : GatherDims S100000x67 S3300000x1 S3300000x67 where
  offsetDims := [1]
  collapsedSliceDims := [0]
  operandBatchingDims := []
  startIndicesBatchingDims := []
  startIndexMap := [0]
  indexVectorDim := 1
  sliceSizes := ![1, 67]
  wf := gather_S100000x67_S3300000x1_S3300000x67_1_0_n_n_0_1_167_wf
def scatter_S100000x67_S3300000x1_S3300000x67_1_0_0_1 : ScatterDims S100000x67 S3300000x1 S3300000x67 where
  updateWindowDims := [1]
  insertedWindowDims := [0]
  scatterDimsToOperandDims := [0]
  indexVectorDim := 1
  wf := scatter_S100000x67_S3300000x1_S3300000x67_1_0_0_1_wf
def dot_S10000x67_S67x7_S10000x7_1_0_0_1_n_n : DotDims S10000x67 S67x7 S10000x7 where
  lhsContracting := [1]
  rhsContracting := [0]
  lhsNonContracting := [0]
  rhsNonContracting := [1]
  lhsBatch := []
  rhsBatch := []
  wf := dot_S10000x67_S67x7_S10000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x67.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x67.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x67.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S10000x67.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v47) S10000x67.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S67x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v94) S10000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v95) S10000x7.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

class Facts : Prop extends Facts₀ where

variable [Facts]
-- ==== ReferenceIdeal.lean ====
abbrev S100000x1433 : Shape := ⟨2, ![100000, 1433]⟩
abbrev S2x3200000 : Shape := ⟨2, ![2, 3200000]⟩
abbrev S1433x67 : Shape := ⟨2, ![1433, 67]⟩
abbrev S67 : Shape := ⟨1, ![67]⟩
abbrev S67x7 : Shape := ⟨2, ![67, 7]⟩
abbrev S7 : Shape := ⟨1, ![7]⟩
abbrev S100000x67 : Shape := ⟨2, ![100000, 67]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x67 : Shape := ⟨2, ![3300000, 67]⟩
abbrev S1x67 : Shape := ⟨2, ![1, 67]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 147
  | .vmem => 0
  | .smem => 0
  | _ => 0

abbrev hbmTy0_0 (i : Nat) : BufTy := match i % 128 with
  | 0 => ⟨S100000x1433, .f32⟩
  | 1 => ⟨S2x3200000, .i32⟩
  | 2 => ⟨S1433x67, .f32⟩
  | 3 => ⟨S67, .f32⟩
  | 4 => ⟨S67x7, .f32⟩
  | 5 => ⟨S7, .f32⟩
  | 6 => ⟨S100000x67, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000x67, .f32⟩
  | 55 => ⟨S3300000x1, .f32⟩
  | 56 => ⟨S3300000x67, .f32⟩
  | 57 => ⟨S3300000x67, .f32⟩
  | 58 => ⟨S_, .f32⟩
  | 59 => ⟨S100000x67, .f32⟩
  | 60 => ⟨S3300000x1, .i32⟩
  | 61 => ⟨S100000x67, .f32⟩
  | 62 => ⟨S1x67, .f32⟩
  | 63 => ⟨S100000x67, .f32⟩
  | 64 => ⟨S100000x67, .f32⟩
  | 65 => ⟨S_, .f32⟩
  | 66 => ⟨S_, .f32⟩
  | 67 => ⟨S100000x67, .f32⟩
  | 68 => ⟨S100000x67, .i1⟩
  | 69 => ⟨S_, .f32⟩
  | 70 => ⟨S100000x67, .f32⟩
  | 71 => ⟨S100000x67, .f32⟩
  | 72 => ⟨S100000x67, .f32⟩
  | 73 => ⟨S100000x7, .f32⟩
  | 74 => ⟨S100000, .i32⟩
  | 75 => ⟨S1x3200000, .i32⟩
  | 76 => ⟨S3200000, .i32⟩
  | 77 => ⟨S3300000, .i32⟩
  | 78 => ⟨S1x3200000, .i32⟩
  | 79 => ⟨S3200000, .i32⟩
  | 80 => ⟨S3300000, .i32⟩
  | 81 => ⟨S_, .f32⟩
  | 82 => ⟨S3300000, .f32⟩
  | 83 => ⟨S_, .f32⟩
  | 84 => ⟨S100000, .f32⟩
  | 85 => ⟨S3300000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S100000, .f32⟩
  | 93 => ⟨S100000, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000, .f32⟩
  | 112 => ⟨S3300000, .f32⟩
  | 113 => ⟨S_, .i32⟩
  | 114 => ⟨S3300000, .i32⟩
  | 115 => ⟨S3300000, .i1⟩
  | 116 => ⟨S_, .i32⟩
  | 117 => ⟨S3300000, .i32⟩
  | 118 => ⟨S3300000, .i32⟩
  | 119 => ⟨S3300000, .i32⟩
  | 120 => ⟨S3300000x1, .i32⟩
  | 121 => ⟨S3300000x7, .f32⟩
  | 122 => ⟨S3300000x1, .f32⟩
  | 123 => ⟨S3300000x7, .f32⟩
  | 124 => ⟨S3300000x7, .f32⟩
  | 125 => ⟨S_, .f32⟩
  | 126 => ⟨S100000x7, .f32⟩
  | 127 => ⟨S3300000x1, .i32⟩
  | _ => ⟨S100000x1433, .f32⟩

abbrev hbmTy0_1 (i : Nat) : BufTy := match i % 128 with
  | 0 => ⟨S100000x7, .f32⟩
  | 1 => ⟨S1x7, .f32⟩
  | 2 => ⟨S100000x7, .f32⟩
  | 3 => ⟨S100000x7, .f32⟩
  | 4 => ⟨S_, .f32⟩
  | 5 => ⟨S100000, .f32⟩
  | 6 => ⟨S_, .f32⟩
  | 7 => ⟨S100000, .f32⟩
  | 8 => ⟨S100000, .f32⟩
  | 9 => ⟨S100000x1, .f32⟩
  | 10 => ⟨S100000x7, .f32⟩
  | 11 => ⟨S100000x7, .f32⟩
  | 12 => ⟨S100000x7, .f32⟩
  | 13 => ⟨S_, .f32⟩
  | 14 => ⟨S100000, .f32⟩
  | 15 => ⟨S100000x1, .f32⟩
  | 16 => ⟨S100000x1, .f32⟩
  | 17 => ⟨S100000x7, .f32⟩
  | 18 => ⟨S100000x7, .f32⟩
  | _ => ⟨S100000x1433, .f32⟩

abbrev hbmTy (i : Nat) : BufTy := match i / 128 with
  | 0 => hbmTy0_0 i
  | 1 => hbmTy0_1 i
  | _ => ⟨S100000x1433, .f32⟩

abbrev bufTy : (tb : Table) → Fin (tcTables nBuf tb) → BufTy
  | .hbm, ⟨i, _⟩ => hbmTy i
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_call2_v0 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_16 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_v79 : Ref sig .tc := ⟨.hbm, 114, rfl⟩
abbrev main_v80 : Ref sig .tc := ⟨.hbm, 115, rfl⟩
abbrev main_c_19 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_20 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_call3_cst_0 : Ref sig .tc := ⟨.hbm, 134, rfl⟩
abbrev main_call3_v1 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_v6 : Ref sig .tc := ⟨.hbm, 140, rfl⟩
abbrev main_call3_cst_1 : Ref sig .tc := ⟨.hbm, 141, rfl⟩
abbrev main_call3_v7 : Ref sig .tc := ⟨.hbm, 142, rfl⟩
abbrev main_call3_v8 : Ref sig .tc := ⟨.hbm, 143, rfl⟩
abbrev main_call3_v9 : Ref sig .tc := ⟨.hbm, 144, rfl⟩
abbrev main_call3_v10 : Ref sig .tc := ⟨.hbm, 145, rfl⟩
abbrev main_v95 : Ref sig .tc := ⟨.hbm, 146, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x67_0_1 : S3300000x1.BroadcastsInDim S3300000x67 (![0, 1] : Fin 2 → Fin S3300000x67.rank)
  bcast_S_S100000x67 : S_.BroadcastsInDim S100000x67 (![] : Fin 0 → Fin S100000x67.rank)
  bcast_S67_S1x67_1 : S67.BroadcastsInDim S1x67 (![1] : Fin 1 → Fin S1x67.rank)
  bcast_S1x67_S100000x67_0_1 : S1x67.BroadcastsInDim S100000x67 (![0, 1] : Fin 2 → Fin S100000x67.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x1433_S1433x67_S100000x67_1_0_0_1_n_n_wf : DotDims.WF S100000x1433 S1433x67 S100000x67 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x67_S3300000x1_S3300000x67_1_0_n_n_0_1_167_wf : GatherDims.WF S100000x67 S3300000x1 S3300000x67 [1] [0] [] [0] [] 1 ![1, 67]
  scatter_S100000x67_S3300000x1_S3300000x67_1_0_0_1_wf : ScatterDims.WF S100000x67 S3300000x1 S3300000x67 [1] [0] [0] 1
  dot_S100000x67_S67x7_S100000x7_1_0_0_1_n_n_wf : DotDims.WF S100000x67 S67x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x1433_S1433x67_S100000x67_1_0_0_1_n_n : DotDims S100000x1433 S1433x67 S100000x67 where
  lhsContracting := [1]
  rhsContracting := [0]
  lhsNonContracting := [0]
  rhsNonContracting := [1]
  lhsBatch := []
  rhsBatch := []
  wf := dot_S100000x1433_S1433x67_S100000x67_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x67_S3300000x1_S3300000x67_1_0_n_n_0_1_167 : GatherDims S100000x67 S3300000x1 S3300000x67 where
  offsetDims := [1]
  collapsedSliceDims := [0]
  operandBatchingDims := []
  startIndicesBatchingDims := []
  startIndexMap := [0]
  indexVectorDim := 1
  sliceSizes := ![1, 67]
  wf := gather_S100000x67_S3300000x1_S3300000x67_1_0_n_n_0_1_167_wf
def scatter_S100000x67_S3300000x1_S3300000x67_1_0_0_1 : ScatterDims S100000x67 S3300000x1 S3300000x67 where
  updateWindowDims := [1]
  insertedWindowDims := [0]
  scatterDimsToOperandDims := [0]
  indexVectorDim := 1
  wf := scatter_S100000x67_S3300000x1_S3300000x67_1_0_0_1_wf
def dot_S100000x67_S67x7_S100000x7_1_0_0_1_n_n : DotDims S100000x67 S67x7 S100000x7 where
  lhsContracting := [1]
  rhsContracting := [0]
  lhsNonContracting := [0]
  rhsNonContracting := [1]
  lhsBatch := []
  rhsBatch := []
  wf := dot_S100000x67_S67x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.GcnSpec.lean ====
/-
  The model both programs compute, as ONE composition of stage functions over whole arrays.

  A two-layer graph convolution on N = 100000 nodes with E = 3200000 directed edges (an index table with a row of
  sources and a row of targets), self-loops appended, symmetric degree normalisation:
    conv h = scatter-add over edges (s to d) of  h[s] * dinv[s] * dinv[d]   + bias,
    dinv = 1/sqrt(deg) where deg > 0 (deg counts incoming edges, self-loop included), else 0,
  composed as  log_softmax (conv7 (leaky (conv67 (x W1)) W2)).
  Each stage below is a pure function of arrays; the edge-indexed stages (endpoints, wrap of negative
  indices, degree, gather, scatter-add, bias) are never opened by the proof: only their inputs are compared.
-/
import proofs.«148221_j25314537242763_1_alg».proof.ReferenceIdeal

noncomputable section

namespace Cert.ReferenceIdeal.Gcn

open Cert.ReferenceIdeal Cert.ReferenceIdeal.Facts₀ Idealize.ShloMosaic

variable {F : FTy → Type} [FloatOps F] [Facts]

/-- Sources of the edges, then every node once (the self-loops). -/
def src (e : (⟨S2x3200000, .i32⟩ : BufTy).Contents (Elt F)) : (⟨S3300000, .i32⟩ : BufTy).Contents (Elt F) :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- Targets of the edges, then every node once. -/
def dst (e : (⟨S2x3200000, .i32⟩ : BufTy).Contents (Elt F)) : (⟨S3300000, .i32⟩ : BufTy).Contents (Elt F) :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A negative node index counts from the end: an index below zero is moved up by N. -/
def wrap (x : (⟨S3300000, .i32⟩ : BufTy).Contents (Elt F)) : (⟨S3300000, .i32⟩ : BufTy).Contents (Elt F) :=
  select (cmpi .slt x (broadcastInDim S3300000 ![] bcast_S_S3300000 (constantI S_ 32 0#32)))
    (addi x (broadcastInDim S3300000 ![] bcast_S_S3300000 (constantI S_ 32 100000#32))) x

/-- In-degree of every node (self-loop included): a scatter-add of ones over the targets. -/
def deg (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 d)
    (broadcastInDim S3300000 ![] bcast_S_S3300000 (constant S_ .f32 0x3F800000#32))

/-- The inverse square root of the degree where the degree is positive, zero elsewhere. -/
def dinv (d : (⟨S3300000, .i32⟩ : BufTy).Contents (Elt F)) : (⟨S100000, .f32⟩ : BufTy).Contents (Elt F) :=
  select (cmpf .ogt (deg d) (broadcastInDim S100000 ![] bcast_S_S100000 (constant S_ .f32 0x00000000#32)))
    (Host.rsqrt (deg d))
    (broadcastInDim S100000 ![] bcast_S_S100000 (constant S_ .f32 0x00000000#32))

/-- The weight of each edge: dinv at its source times dinv at its target. -/
def norm (s d : (⟨S3300000, .i32⟩ : BufTy).Contents (Elt F)) : (⟨S3300000, .f32⟩ : BufTy).Contents (Elt F) :=
  mulf (Host.gather gather_S100000_S3300000x1_S3300000_n_0_n_n_0_1_1 (dinv d) (broadcastInDim S3300000x1 ![0] bcast_S3300000_S3300000x1_0 (wrap s)))
    (Host.gather gather_S100000_S3300000x1_S3300000_n_0_n_n_0_1_1 (dinv d) (broadcastInDim S3300000x1 ![0] bcast_S3300000_S3300000x1_0 (wrap d)))

/-- The convolution on 67 features: gather the source rows, weigh, scatter-add at the targets, add the bias. -/
def conv67 (h : (⟨S100000x67, .f32⟩ : BufTy).Contents (Elt F)) (e : (⟨S2x3200000, .i32⟩ : BufTy).Contents (Elt F))
    (b : (⟨S67, .f32⟩ : BufTy).Contents (Elt F)) : (⟨S100000x67, .f32⟩ : BufTy).Contents (Elt F) :=
  addf
    (Host.scatterAdd scatter_S100000x67_S3300000x1_S3300000x67_1_0_0_1
      (broadcastInDim S100000x67 ![] bcast_S_S100000x67 (constant S_ .f32 0x00000000#32))
      (broadcastInDim S3300000x1 ![0] bcast_S3300000_S3300000x1_0 (dst e))
      (mulf (Host.gather gather_S100000x67_S3300000x1_S3300000x67_1_0_n_n_0_1_167 h (broadcastInDim S3300000x1 ![0] bcast_S3300000_S3300000x1_0 (wrap (src e))))
        (broadcastInDim S3300000x67 ![0, 1] bcast_S3300000x1_S3300000x67_0_1 (broadcastInDim S3300000x1 ![0] bcast_S3300000_S3300000x1_0 (norm (src e) (dst e))))))
    (broadcastInDim S100000x67 ![0, 1] bcast_S1x67_S100000x67_0_1 (broadcastInDim S1x67 ![1] bcast_S67_S1x67_1 b))

/-- The convolution on 7 features. -/
def conv7 (h : (⟨S100000x7, .f32⟩ : BufTy).Contents (Elt F)) (e : (⟨S2x3200000, .i32⟩ : BufTy).Contents (Elt F))
    (b : (⟨S7, .f32⟩ : BufTy).Contents (Elt F)) : (⟨S100000x7, .f32⟩ : BufTy).Contents (Elt F) :=
  addf
    (Host.scatterAdd scatter_S100000x7_S3300000x1_S3300000x7_1_0_0_1
      (broadcastInDim S100000x7 ![] bcast_S_S100000x7 (constant S_ .f32 0x00000000#32))
      (broadcastInDim S3300000x1 ![0] bcast_S3300000_S3300000x1_0 (dst e))
      (mulf (Host.gather gather_S100000x7_S3300000x1_S3300000x7_1_0_n_n_0_1_17 h (broadcastInDim S3300000x1 ![0] bcast_S3300000_S3300000x1_0 (wrap (src e))))
        (broadcastInDim S3300000x7 ![0, 1] bcast_S3300000x1_S3300000x7_0_1 (broadcastInDim S3300000x1 ![0] bcast_S3300000_S3300000x1_0 (norm (src e) (dst e))))))
    (broadcastInDim S100000x7 ![0, 1] bcast_S1x7_S100000x7_0_1 (broadcastInDim S1x7 ![1] bcast_S7_S1x7_1 b))

/-- The product of x and W1: entry (i, j) is the sum over k of x[i, k] * W1[k, j]. -/
def dot1 (x : (⟨S100000x1433, .f32⟩ : BufTy).Contents (Elt F)) (w : (⟨S1433x67, .f32⟩ : BufTy).Contents (Elt F)) :
    (⟨S100000x67, .f32⟩ : BufTy).Contents (Elt F) :=
  Host.dotGeneral dot_S100000x1433_S1433x67_S100000x67_1_0_0_1_n_n none x w

/-- The product of h and W2. -/
def dot2 (h : (⟨S100000x67, .f32⟩ : BufTy).Contents (Elt F)) (w : (⟨S67x7, .f32⟩ : BufTy).Contents (Elt F)) :
    (⟨S100000x7, .f32⟩ : BufTy).Contents (Elt F) :=
  Host.dotGeneral dot_S100000x67_S67x7_S100000x7_1_0_0_1_n_n none h w

/-- Leaky rectifier, slope the float nearest 0.01: v where v is at least 0, else slope times v. -/
def leaky (v : (⟨S100000x67, .f32⟩ : BufTy).Contents (Elt F)) : (⟨S100000x67, .f32⟩ : BufTy).Contents (Elt F) :=
  select (cmpf .oge v (broadcastInDim S100000x67 ![] bcast_S_S100000x67 (constant S_ .f32 0x00000000#32))) v
    (mulf (broadcastInDim S100000x67 ![] bcast_S_S100000x67 (id (constant S_ .f32 0x3C23D70A#32))) v)

/-- The row maximum (never below minus infinity), broadcast back along the row. -/
def rowMax (v : (⟨S100000x7, .f32⟩ : BufTy).Contents (Elt F)) : (⟨S100000x7, .f32⟩ : BufTy).Contents (Elt F) :=
  broadcastInDim S100000x7 ![0, 1] bcast_S100000x1_S100000x7_0_1 (broadcastInDim S100000x1 ![0] bcast_S100000_S100000x1_0
    (maximumf (broadcastInDim S100000 ![] bcast_S_S100000 (constant S_ .f32 0xFF800000#32))
      (Host.reduce FloatOps.maximumf v (constant S_ .f32 0xFF800000#32) reducesTo_S100000x7_S100000_d1 h_S_)))

/-- The log of a row's sum of exponentials, broadcast back along the row. -/
def rowLse (s : (⟨S100000x7, .f32⟩ : BufTy).Contents (Elt F)) : (⟨S100000x7, .f32⟩ : BufTy).Contents (Elt F) :=
  broadcastInDim S100000x7 ![0, 1] bcast_S100000x1_S100000x7_0_1 (Host.log (broadcastInDim S100000x1 ![0] bcast_S100000_S100000x1_0
    (Host.reduceAdd (Host.exp s) (constant S_ .f32 0x00000000#32) reducesTo_S100000x7_S100000_d1 h_S_)))

/-- Row-wise log-softmax: shift by the row maximum, subtract the log of the sum of exponentials. -/
def logSoftmax (v : (⟨S100000x7, .f32⟩ : BufTy).Contents (Elt F)) : (⟨S100000x7, .f32⟩ : BufTy).Contents (Elt F) :=
  subf (subf v (rowMax v)) (rowLse (subf v (rowMax v)))

/-- The whole model. -/
def model (x : (⟨S100000x1433, .f32⟩ : BufTy).Contents (Elt F)) (e : (⟨S2x3200000, .i32⟩ : BufTy).Contents (Elt F))
    (w1 : (⟨S1433x67, .f32⟩ : BufTy).Contents (Elt F)) (b1 : (⟨S67, .f32⟩ : BufTy).Contents (Elt F))
    (w2 : (⟨S67x7, .f32⟩ : BufTy).Contents (Elt F)) (b2 : (⟨S7, .f32⟩ : BufTy).Contents (Elt F)) :
    (⟨S100000x7, .f32⟩ : BufTy).Contents (Elt F) :=
  logSoftmax (conv7 (dot2 (leaky (conv67 (dot1 x w1) e b1)) w2) e b2)

end Cert.ReferenceIdeal.Gcn

end
-- ==== Proof.OutRun.lean ====
/-
  The idealized kernel's run, with its result buffer in the post.

  The program is four pipelined regions among stretches of host operations. Its run ends with every unscoped
  buffer of a core at the contents the last segment boundary names (the fold of the segments from the launch
  memory); the frame claim reads the six argument buffers off that state, and here the result buffer is read
  off it as well: it ends at the last boundary's contents at that buffer.
-/
import proofs.«148221_j25314537242763_1_alg».proof.Proof.Gen.KernelIdeal.Frame

noncomputable section

namespace Cert.KernelIdeal.OutRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer at the last
    boundary's contents and the six argument buffers as launched. -/
theorem run : θ_run defs (onTc (τ := τ) (main (F := F))) ⟨m, fun _ => 0, ρ⟩ (fun r => ∀ c : Dev nD,
      r.2.mem ((c.tc : Thread nD τ).loc main_v95) = W10 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v95 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.OutRun

end
-- ==== Proof.HostStretch.lean ====
/-
  The host operations between the regions, read as stage functions.

  Between the first product and the rectifier, and again between the second product and the log-softmax, the
  kernel's program runs the graph convolution on the host: the edge endpoints with the self-loops appended, the
  degrees by a scatter-add of ones, their inverse square roots, the edge weights, the gather of source rows, the
  scatter-add at the targets and the bias. These are the same operations, in the same order, as the
  reference's; read off the fold of the operations over ANY buffer contents, the stretch's result is the
  convolution stage of the product it finds, the edge table and the bias, and the argument buffers the later
  segments still read pass through unchanged (no operation of a stretch writes them).
-/
import proofs.«148221_j25314537242763_1_alg».proof.Proof.Gen.KernelIdeal.Frame
import proofs.«148221_j25314537242763_1_alg».proof.Proof.GcnSpec
import Idealize.ShloMosaic.Lib.StableHlo.Run

noncomputable section

namespace Cert.KernelIdeal.HostStretch

open Cert.KernelIdeal Cert.KernelIdeal.Gen Idealize.ShloMosaic Idealize.ShloMosaic.TcCoe Idealize.SL.Sem Idealize.ShloMosaic.StableHlo

variable [Cert.KernelIdeal.Facts] [Cert.ReferenceIdeal.Facts]
variable {F : FTy → Type} [FloatOps F]

/-- A buffer that none of a list's operations writes keeps its contents through the list: the list's written
    buffers are read off one by one and each is another reference. -/
macro "not_written" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

attribute [local irreducible] Host.gather Host.scatterAdd Host.rsqrt in
set_option maxRecDepth 16384 in
set_option maxHeartbeats 1000000 in
/-- After the first product: the 58 host operations leave, at the rectifier's input buffer, the convolution on 67
    features of the product, the edge table and the first bias as the stretch finds them. -/
theorem stretch1 (Wv : Valuation τ sig (Elt F)) :
    after hostOps1_2 (after hostOps1_1 (after hostOps1 Wv)) (Proc.devRef .tc main_v46)
      = Cert.ReferenceIdeal.Gcn.conv67 (F := F) (Wv (Proc.devRef .tc main_v0)) (Wv (Proc.devRef .tc main_arg1)) (Wv (Proc.devRef .tc main_arg3)) := by
  dsimp only [hostOps1, hostOps1_1, hostOps1_2]
  after_results_simp
  unfold Cert.ReferenceIdeal.Gcn.conv67 Cert.ReferenceIdeal.Gcn.norm Cert.ReferenceIdeal.Gcn.dinv Cert.ReferenceIdeal.Gcn.deg Cert.ReferenceIdeal.Gcn.wrap Cert.ReferenceIdeal.Gcn.src Cert.ReferenceIdeal.Gcn.dst
  rfl

attribute [local irreducible] Host.gather Host.scatterAdd Host.rsqrt in
set_option maxRecDepth 16384 in
set_option maxHeartbeats 1000000 in
/-- After the second product: the host operations leave, at the log-softmax's input buffer, the convolution on 7
    features of the product, the edge table and the second bias as the stretch finds them. -/
theorem stretch2 (Wv : Valuation τ sig (Elt F)) :
    after hostOps3_2 (after hostOps3_1 (after hostOps3 Wv)) (Proc.devRef .tc main_v94)
      = Cert.ReferenceIdeal.Gcn.conv7 (F := F) (Wv (Proc.devRef .tc main_v48)) (Wv (Proc.devRef .tc main_arg1)) (Wv (Proc.devRef .tc main_arg5)) := by
  dsimp only [hostOps3, hostOps3_1, hostOps3_2]
  after_results_simp
  unfold Cert.ReferenceIdeal.Gcn.conv7 Cert.ReferenceIdeal.Gcn.norm Cert.ReferenceIdeal.Gcn.dinv Cert.ReferenceIdeal.Gcn.deg Cert.ReferenceIdeal.Gcn.wrap Cert.ReferenceIdeal.Gcn.src Cert.ReferenceIdeal.Gcn.dst
  rfl

/-- The edge table passes through the first stretch. -/
theorem keep1_arg1 (Wv : Valuation τ sig (Elt F)) :
    after hostOps1_2 (after hostOps1_1 (after hostOps1 Wv)) (Proc.devRef .tc main_arg1) = Wv (Proc.devRef .tc main_arg1) := by
  refine Eq.trans (b := after hostOps1_1 (after hostOps1 Wv) (Proc.devRef .tc main_arg1)) ?_
    (Eq.trans (b := after hostOps1 Wv (Proc.devRef .tc main_arg1)) ?_ ?_)
  · not_written hostOps1_2
  · not_written hostOps1_1
  · not_written hostOps1

/-- The second weight matrix passes through the first stretch. -/
theorem keep1_arg4 (Wv : Valuation τ sig (Elt F)) :
    after hostOps1_2 (after hostOps1_1 (after hostOps1 Wv)) (Proc.devRef .tc main_arg4) = Wv (Proc.devRef .tc main_arg4) := by
  refine Eq.trans (b := after hostOps1_1 (after hostOps1 Wv) (Proc.devRef .tc main_arg4)) ?_
    (Eq.trans (b := after hostOps1 Wv (Proc.devRef .tc main_arg4)) ?_ ?_)
  · not_written hostOps1_2
  · not_written hostOps1_1
  · not_written hostOps1

/-- The second bias passes through the first stretch. -/
theorem keep1_arg5 (Wv : Valuation τ sig (Elt F)) :
    after hostOps1_2 (after hostOps1_1 (after hostOps1 Wv)) (Proc.devRef .tc main_arg5) = Wv (Proc.devRef .tc main_arg5) := by
  refine Eq.trans (b := after hostOps1_1 (after hostOps1 Wv) (Proc.devRef .tc main_arg5)) ?_
    (Eq.trans (b := after hostOps1 Wv (Proc.devRef .tc main_arg5)) ?_ ?_)
  · not_written hostOps1_2
  · not_written hostOps1_1
  · not_written hostOps1

end Cert.KernelIdeal.HostStretch

end
-- ==== Proof.Matmul1Value.lean ====
/-
  The first matrix product, block by block, is the whole product.

  The region walks the 100000 rows of x in 50 blocks of 2000 rows. At block t it multiplies rows 2000 t … 2000 t + 1999
  of x (all 1433 columns) by the whole weight matrix W (1433 by 67) and writes the 2000 by 67 result over the same rows
  of the output. Entry (r, j) of the output therefore is  ∑ k, x[r, k] · W[k, j]  over k below 1433: the entry of the
  whole product x W. On the extended reals a change of float format is the identity and both products are this same
  finite sum, term for term, so no finiteness of the entries is needed.
-/
import proofs.«148221_j25314537242763_1_alg».proof.Proof.Gen.KernelIdeal.Frame
import proofs.«148221_j25314537242763_1_alg».proof.Proof.GcnSpec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Matmul1Value

open Cert.KernelIdeal Cert.KernelIdeal.Gen Idealize.ShloMosaic Idealize.ShloMosaic.TcCoe Idealize.SL.Sem
open Idealize.ShloMosaic.Pipeline (Dat Cfg Window)
open Idealize.ShloMosaic.ValueIdx

variable [Cert.ReferenceIdeal.Facts]

/-! ## The two products, entry by entry -/

/-- The dimension numbers of the product of one block of rows: [2000, 1433] times [1433, 67]. -/
abbrev blockDims : DotDims S2000x1433 S1433x67 S2000x67 := dot_S2000x1433_S1433x67_S2000x67_1_0_0_1_n_n
/-- The dimension numbers of the whole product: [100000, 1433] times [1433, 67]. -/
abbrev wholeDims : DotDims Cert.ReferenceIdeal.S100000x1433 Cert.ReferenceIdeal.S1433x67 Cert.ReferenceIdeal.S100000x67 :=
  Cert.ReferenceIdeal.dot_S100000x1433_S1433x67_S100000x67_1_0_0_1_n_n

/-- In the block product the left factor of entry (p, q) at contraction position k sits in row p … -/
theorem blockLhs_row (i : S2000x67.Idx) (q : blockDims.contr.Idx) : (blockDims.lhsIdx i q 0).val = (i 0).val := by
  unfold DotDims.lhsIdx
  rw [dif_neg (show ¬(0 : Fin S2000x1433.rank) ∈ blockDims.lhsBatch by decide), dif_pos (show (0 : Fin S2000x1433.rank) ∈ blockDims.lhsNonContracting by decide)]
  rfl
/-- … and column k; -/
theorem blockLhs_col (i : S2000x67.Idx) (q : blockDims.contr.Idx) : (blockDims.lhsIdx i q 1).val = (q ⟨0, by decide⟩).val :=
  blockDims.lhsIdx_val_of_single rfl i q
/-- the right factor sits in row k … -/
theorem blockRhs_row (i : S2000x67.Idx) (q : blockDims.contr.Idx) : (blockDims.rhsIdx i q 0).val = (q ⟨0, by decide⟩).val :=
  blockDims.rhsIdx_val_of_single rfl i q
/-- … and column q. -/
theorem blockRhs_col (i : S2000x67.Idx) (q : blockDims.contr.Idx) : (blockDims.rhsIdx i q 1).val = (i 1).val := by
  unfold DotDims.rhsIdx
  rw [dif_neg (show ¬(1 : Fin S1433x67.rank) ∈ blockDims.rhsBatch by decide), dif_pos (show (1 : Fin S1433x67.rank) ∈ blockDims.rhsNonContracting by decide)]
  rfl

/-- Entry (p, q) of the product of a block of 2000 rows with the weights: both operands change float format first,
    which is the identity on the extended reals, and the accumulator starts at zero, so the entry is the plain sum
    over the 1433 contraction positions. -/
theorem blockProduct_apply (x0 : Vec Ideal S2000x1433 .f32) (x1 : Vec Ideal S1433x67 .f32) (p : Fin 2000) (q : Fin 67) :
    k0_pay1 x0 x1 (ix2 p q) = ∑ k : Fin 1433, x0 (ix2 p k) * x1 (ix2 k q) := by
  unfold k0_pay1
  show FloatOps.matmul blockDims none (truncf (F := Ideal) .bf16 x0 bitsLt_bf16_f32) (truncf (F := Ideal) .bf16 x1 bitsLt_bf16_f32)
      (constant (F := Ideal) S2000x67 .f32 0x00000000#32) (ix2 p q) = _
  rw [Ideal.matmul_constant_zero_apply, ← Equiv.sum_comp (contrEquiv1 blockDims 1433 rfl rfl).symm]
  refine Finset.sum_congr rfl fun k _ => ?_
  have hk := contrEquiv1_symm_val blockDims 1433 rfl rfl k
  have el : blockDims.lhsIdx (ix2 p q) ((contrEquiv1 blockDims 1433 rfl rfl).symm k) = ix2 p k := funext fun a => Fin.ext (by
    match a with
    | ⟨0, _⟩ => exact blockLhs_row _ _
    | ⟨1, _⟩ => exact (blockLhs_col _ _).trans hk)
  have er : blockDims.rhsIdx (ix2 p q) ((contrEquiv1 blockDims 1433 rfl rfl).symm k) = ix2 k q := funext fun a => Fin.ext (by
    match a with
    | ⟨0, _⟩ => exact (blockRhs_row _ _).trans hk
    | ⟨1, _⟩ => exact blockRhs_col _ _)
  rw [el, er]
  rfl

/-- The same four coordinate facts for the whole product. -/
theorem wholeLhs_row (i : Cert.ReferenceIdeal.S100000x67.Idx) (q : wholeDims.contr.Idx) : (wholeDims.lhsIdx i q 0).val = (i 0).val := by
  unfold DotDims.lhsIdx
  rw [dif_neg (show ¬(0 : Fin Cert.ReferenceIdeal.S100000x1433.rank) ∈ wholeDims.lhsBatch from List.not_mem_nil), dif_pos (show (0 : Fin Cert.ReferenceIdeal.S100000x1433.rank) ∈ wholeDims.lhsNonContracting from List.mem_singleton.mpr rfl)]
  rfl
theorem wholeLhs_col (i : Cert.ReferenceIdeal.S100000x67.Idx) (q : wholeDims.contr.Idx) :
    (wholeDims.lhsIdx i q 1).val = (q ⟨0, (Nat.one_pos : 0 < wholeDims.contr.rank)⟩).val :=
  wholeDims.lhsIdx_val_of_single rfl i q
theorem wholeRhs_row (i : Cert.ReferenceIdeal.S100000x67.Idx) (q : wholeDims.contr.Idx) :
    (wholeDims.rhsIdx i q 0).val = (q ⟨0, (Nat.one_pos : 0 < wholeDims.contr.rank)⟩).val :=
  wholeDims.rhsIdx_val_of_single rfl i q
theorem wholeRhs_col (i : Cert.ReferenceIdeal.S100000x67.Idx) (q : wholeDims.contr.Idx) : (wholeDims.rhsIdx i q 1).val = (i 1).val := by
  unfold DotDims.rhsIdx
  rw [dif_neg (show ¬(1 : Fin Cert.ReferenceIdeal.S1433x67.rank) ∈ wholeDims.rhsBatch from List.not_mem_nil), dif_pos (show (1 : Fin Cert.ReferenceIdeal.S1433x67.rank) ∈ wholeDims.rhsNonContracting from List.mem_singleton.mpr rfl)]
  rfl

/-- Entry (r, q) of the whole product x W: the sum over k of x[r, k] · W[k, q]. -/
theorem wholeProduct_apply (x : Vec Ideal S100000x1433 .f32) (w : Vec Ideal S1433x67 .f32) (r : Fin 100000) (q : Fin 67) :
    Cert.ReferenceIdeal.Gcn.dot1 (F := Ideal) x w (ix2 r q) = ∑ k : Fin 1433, x (ix2 r k) * w (ix2 k q) := by
  unfold Cert.ReferenceIdeal.Gcn.dot1
  show FloatOps.dotGeneral (F := Ideal) wholeDims none .single x w (ix2 r q) = _
  rw [Ideal.dotGeneral_apply, ← Equiv.sum_comp (contrEquiv1 wholeDims 1433 rfl rfl).symm]
  refine Finset.sum_congr rfl fun k _ => ?_
  have hk := contrEquiv1_symm_val wholeDims 1433 rfl rfl k
  have el : wholeDims.lhsIdx (ix2 r q) ((contrEquiv1 wholeDims 1433 rfl rfl).symm k) = ix2 r k := funext fun a => Fin.ext (by
    match a with
    | ⟨0, _⟩ => exact wholeLhs_row _ _
    | ⟨1, _⟩ => exact (wholeLhs_col _ _).trans hk)
  have er : wholeDims.rhsIdx (ix2 r q) ((contrEquiv1 wholeDims 1433 rfl rfl).symm k) = ix2 k q := funext fun a => Fin.ext (by
    match a with
    | ⟨0, _⟩ => exact (wholeRhs_row _ _).trans hk
    | ⟨1, _⟩ => exact wholeRhs_col _ _)
  rw [el, er]

/-- A BLOCK OF THE WHOLE PRODUCT. If x0 is rows 2000 b … 2000 b + 1999 of X and x1 is all of W, then entry j of the
    block product x0 x1 is entry i of X W whenever i is j moved down by 2000 b rows: the two sums agree term by term. -/
theorem blockProduct_eq_wholeProduct (X : Vec Ideal S100000x1433 .f32) (W : Vec Ideal S1433x67 .f32)
    (x0 : Vec Ideal S2000x1433 .f32) (x1 : Vec Ideal S1433x67 .f32) (b : Nat)
    (h0 : ∀ (p : Fin 2000) (k : Fin 1433) (hb : b * 2000 + p.val < 100000), x0 (ix2 p k) = X (ix2 ⟨b * 2000 + p.val, hb⟩ k))
    (h1 : ∀ (k : Fin 1433) (q : Fin 67), x1 (ix2 k q) = W (ix2 k q))
    (j : S2000x67.Idx) (i : S100000x67.Idx) (hi0 : (i 0).val = b * 2000 + (j 0).val) (hi1 : (i 1).val = (j 1).val) :
    k0_pay1 x0 x1 j = Cert.ReferenceIdeal.Gcn.dot1 (F := Ideal) X W i := by
  obtain ⟨p, q, rfl⟩ : ∃ (p : Fin 2000) (q : Fin 67), j = ix2 p q := ⟨j 0, j 1, eq_ix2 j⟩
  obtain ⟨r, q', rfl⟩ : ∃ (r : Fin 100000) (q' : Fin 67), i = ix2 r q' := ⟨i 0, i 1, eq_ix2 i⟩
  have hr : r.val = b * 2000 + p.val := hi0
  have hq : q'.val = q.val := hi1
  obtain rfl : q = q' := Fin.ext hq.symm
  have hb : b * 2000 + p.val < 100000 := hr ▸ r.isLt
  obtain rfl : r = ⟨b * 2000 + p.val, hb⟩ := Fin.ext hr
  rw [blockProduct_apply, wholeProduct_apply]
  refine Finset.sum_congr rfl fun k _ => ?_
  rw [h0 p k hb, h1]

/-! ## From the blocks to the array -/

/-- Every access inside the body starts at the corner of its buffer. -/
theorem zero_corner : (![0, 0] : Fin 2 → Nat) = fun _ => 0 := funext fun a => by fin_cases a <;> rfl

/-- Which block each window holds at grid point t: rows block t, the only column block, of x and of the output; the
    one block of W. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is rows 2000 t … 2000 t + 1999 of the whole product of the two arrays as the region
    finds them: the body's one store fills the output buffer with the block product of the two loaded blocks, the x
    block being those rows of x (row 2000 t + p of the array is row p of the block) and the W block all of W. -/
theorem written_block_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal)
      (Cert.ReferenceIdeal.Gcn.dot1 (F := Ideal) (V c main_arg0) (V c main_arg2)) := by
  show (cfg0.win 2).cut (grid0.coords t) ((dat0 (F := Ideal) V c).after 2 t) = _
  rw [after0_2]
  unfold out0_2
  rw [View.canon_unit_zero zero_corner]
  simp only [View.ld_unit_zero (S := S2000x1433) zero_corner, View.ld_unit_zero (S := S1433x67) zero_corner]
  obtain ⟨e00, e01, e10, e11, e20, e21⟩ := block_indices t
  funext j
  refine blockProduct_eq_wholeProduct (V c main_arg0) (V c main_arg2) (iblk0 V c 0 t) (iblk0 V c 1 t) t.val ?_ ?_ j
    (((cfg0.win 2).blk t).view.emb j) ?_ ?_
  · intro p k hb
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 1433 + 1 * k.val = k.val; omega
  · intro k q
    show V c main_arg2 (((cfg0.win 1).blk t).view.emb (ix2 k q)) = _
    refine congrArg (V c main_arg2) (funext fun a => Fin.ext ?_)
    match a with
    | ⟨0, _⟩ => show win0_1.index t (0 : Fin 2) * 1433 + 1 * k.val = k.val; omega
    | ⟨1, _⟩ => show win0_1.index t (1 : Fin 2) * 67 + 1 * q.val = q.val; omega
  · show win0_2.index t (0 : Fin 2) * 2000 + 1 * (j 0).val = t.val * 2000 + (j 0).val; omega
  · show win0_2.index t (1 : Fin 2) * 67 + 1 * (j 1).val = (j 1).val; omega

/-- An entry of the output lies in point t's block iff each of its coordinates lies in the block's range on its axis. -/
theorem mem_rowBlock (t : Fin cfg0.N) (i : S100000x67.Idx) :
    i ∈ ((cfg0.win 2).blk t).view.set ↔ ∀ a : Fin 2, win0_2.index t a * S2000x67.size a ≤ (i a).val ∧ (i a).val < win0_2.index t a * S2000x67.size a + S2000x67.size a := by
  show i ∈ ((View.whole main_v0).slice (win0_2.rect t)).set ↔ _
  rw [View.set_slice_whole, Rect.mem_set_unit]
  exact Iff.rfl

/-- EVERY ENTRY IS WRITTEN: row r lies in block r / 2000, and 50 blocks of 2000 rows are all 100000 rows. -/
theorem row_covered (i : S100000x67.Idx) :
    ∃ t : Fin cfg0.N, (cfg0.win 2).flush t = true ∧ i ∈ ((cfg0.win 2).blk t).view.set := by
  have hi0 : (i 0).val < 100000 := (i 0).isLt
  have hi1 : (i 1).val < 67 := (i 1).isLt
  have hN : cfg0.N = 50 := N_0
  have ht : (i 0).val / 2000 < cfg0.N := lt_of_lt_of_eq (by omega) hN.symm
  obtain ⟨e00, e01, e10, e11, e20, e21⟩ := block_indices ⟨(i 0).val / 2000, ht⟩
  have e20' : win0_2.index ⟨(i 0).val / 2000, ht⟩ (0 : Fin 2) = (i 0).val / 2000 := e20
  refine ⟨⟨(i 0).val / 2000, ht⟩, flush0_2 _, ?_⟩
  rw [mem_rowBlock]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000; omega
  | ⟨1, _⟩ => show win0_2.index ⟨(i 0).val / 2000, ht⟩ (1 : Fin 2) * 67 ≤ (i 1).val ∧ (i 1).val < win0_2.index ⟨(i 0).val / 2000, ht⟩ (1 : Fin 2) * 67 + 67; omega

/-- THE OUTPUT ARRAY after the region is the whole product of x and W as the region finds them. -/
theorem final (V : (c : Dev nD) → (b : Ref sig .tc) → Buf (Elt Ideal) ((c : Thread nD τ).loc b)) (c : Dev nD) :
    (dat0 (F := Ideal) V c).arrAt 2 cfg0.N = Cert.ReferenceIdeal.Gcn.dot1 (F := Ideal) (V c main_arg0) (V c main_arg2) :=
  (dat0 (F := Ideal) V c).arrAt_eq_of_cover 2 _ (fun t _ => written_block_eq V c t) row_covered

end Cert.KernelIdeal.Matmul1Value

end
-- ==== Proof.LeakyValue.lean ====
/-
  The leaky rectifier's region, read as one function of the array it finds.

  The region walks the [100000, 67] array in ten blocks of 10000 rows; at each block it loads the block, keeps an
  entry that is at least zero and multiplies a negative one by the float nearest 0.01, and writes the block back
  over the same rows of the output array. Entry (r, j) of the output therefore depends on entry (r, j) of the input
  alone, row r = 10000 t + p of the array being row p of block t. The host form of the rectifier multiplies by the
  slope on the other side; the product of two extended reals commutes, so the two agree entry by entry.
-/
import proofs.«148221_j25314537242763_1_alg».proof.Proof.Gen.KernelIdeal.Frame
import proofs.«148221_j25314537242763_1_alg».proof.Proof.GcnSpec
import Idealize.ShloMosaic.Lib.Pipeline.Value
import Idealize.ShloMosaic.PureOps.Ideal

noncomputable section

namespace Cert.KernelIdeal.LeakyValue

open Cert.KernelIdeal Cert.KernelIdeal.Gen Idealize.ShloMosaic Idealize.ShloMosaic.TcCoe Idealize.SL.Sem
open Idealize.ShloMosaic.Pipeline (Dat Cfg Window)

variable [Cert.ReferenceIdeal.Facts]

/-- One entry of the block's result against one entry of the host rectifier, when the two read the same number: the
    comparison with zero and the kept entry are literally the same, and the scaled entry is the same product with its
    factors exchanged. -/
theorem entry_eq (x : Vec Ideal S10000x67 .f32) (v : (⟨Cert.ReferenceIdeal.S100000x67, .f32⟩ : BufTy).Contents (Elt Ideal))
    (j : S10000x67.Idx) (i : Cert.ReferenceIdeal.S100000x67.Idx) (h : x j = v i) :
    k1_pay1 (F := Ideal) x j = Cert.ReferenceIdeal.Gcn.leaky (F := Ideal) v i := by
  unfold k1_pay1 Cert.ReferenceIdeal.Gcn.leaky
  simp only [shapeCast_self]
  have h' : (x j : Ideal .f32) = (v i : Ideal .f32) := h
  show Scalar.select (FloatOps.cmpf (F := Ideal) .oge (x j : Ideal .f32) (FloatOps.ofBits .f32 0x00000000#32)) (x j : Ideal .f32)
        (FloatOps.mulf (F := Ideal) (x j : Ideal .f32) (FloatOps.ofBits .f32 0x3C23D70A#32))
      = Scalar.select (FloatOps.cmpf (F := Ideal) .oge (v i : Ideal .f32) (FloatOps.ofBits .f32 0x00000000#32)) (v i : Ideal .f32)
        (FloatOps.mulf (F := Ideal) (FloatOps.ofBits .f32 0x3C23D70A#32) (v i : Ideal .f32))
  rw [h', Ideal.mulf_def, Ideal.mulf_def, mul_comm]

/-! ## From the blocks to the array -/

/-- Every access inside the body starts at the corner of its buffer. -/
theorem zero_corner : (![0, 0] : Fin 2 → Nat) = fun _ => 0 := funext fun a => by fin_cases a <;> rfl

/-- Which block each window holds at grid point t: rows block t, the only column block, of the input and of the output. -/
theorem block_indices : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- WHAT POINT t WRITES BACK is rows 10000 t … 10000 t + 9999 of the rectifier of the array as the region finds it: the
    body's one store fills the output buffer with the rectifier of the loaded block, and the input block and the output
    block sit over the same rows and columns. -/
theorem written_block_eq (V : (c : Dev nD) → (b : Ref sig .tc) → Buf (Elt Ideal) ((c : Thread nD τ).loc b)) (c : Dev nD) (t : Fin cfg1.N) :
    (dat1 (F := Ideal) V c).flushed 1 t = ((cfg1.win 1).blk t).view.read (Elt Ideal)
      (Cert.ReferenceIdeal.Gcn.leaky (F := Ideal) (V c main_v46)) := by
  show (cfg1.win 1).cut (grid1.coords t) ((dat1 (F := Ideal) V c).after 1 t) = _
  rw [after1_1]
  unfold out1_1
  rw [View.canon_unit_zero zero_corner]
  simp only [View.ld_unit_zero (S := S10000x67) zero_corner]
  obtain ⟨e00, e01, e10, e11⟩ := block_indices t
  funext j
  refine entry_eq (iblk1 V c 0 t) (V c main_v46) j (((cfg1.win 1).blk t).view.emb j) ?_
  show V c main_v46 (((cfg1.win 0).blk t).view.emb j) = V c main_v46 (((cfg1.win 1).blk t).view.emb j)
  refine congrArg (V c main_v46) (funext fun a => Fin.ext ?_)
  match a with
  | ⟨0, _⟩ => show win1_0.index t (0 : Fin 2) * 10000 + 1 * (j 0).val = win1_1.index t (0 : Fin 2) * 10000 + 1 * (j 0).val; omega
  | ⟨1, _⟩ => show win1_0.index t (1 : Fin 2) * 67 + 1 * (j 1).val = win1_1.index t (1 : Fin 2) * 67 + 1 * (j 1).val; omega

/-- An entry of the output lies in point t's block iff each of its coordinates lies in the block's range on its axis. -/
theorem mem_rowBlock (t : Fin cfg1.N) (i : S100000x67.Idx) :
    i ∈ ((cfg1.win 1).blk t).view.set ↔ ∀ a : Fin 2, win1_1.index t a * S10000x67.size a ≤ (i a).val ∧ (i a).val < win1_1.index t a * S10000x67.size a + S10000x67.size a := by
  show i ∈ ((View.whole main_v47).slice (win1_1.rect t)).set ↔ _
  rw [View.set_slice_whole, Rect.mem_set_unit]
  exact Iff.rfl

/-- EVERY ENTRY IS WRITTEN: row r lies in block r / 10000, and ten blocks of 10000 rows are all 100000 rows. -/
theorem row_covered (i : S100000x67.Idx) :
    ∃ t : Fin cfg1.N, (cfg1.win 1).flush t = true ∧ i ∈ ((cfg1.win 1).blk t).view.set := by
  have hi0 : (i 0).val < 100000 := (i 0).isLt
  have hi1 : (i 1).val < 67 := (i 1).isLt
  have hN : cfg1.N = 10 := N_1
  have ht : (i 0).val / 10000 < cfg1.N := lt_of_lt_of_eq (by omega) hN.symm
  obtain ⟨e00, e01, e10, e11⟩ := block_indices ⟨(i 0).val / 10000, ht⟩
  have e10' : win1_1.index ⟨(i 0).val / 10000, ht⟩ (0 : Fin 2) = (i 0).val / 10000 := e10
  refine ⟨⟨(i 0).val / 10000, ht⟩, flush1_1 _, ?_⟩
  rw [mem_rowBlock]
  intro a
  match a with
  | ⟨0, _⟩ => show win1_1.index ⟨(i 0).val / 10000, ht⟩ (0 : Fin 2) * 10000 ≤ (i 0).val ∧ (i 0).val < win1_1.index ⟨(i 0).val / 10000, ht⟩ (0 : Fin 2) * 10000 + 10000; omega
  | ⟨1, _⟩ => show win1_1.index ⟨(i 0).val / 10000, ht⟩ (1 : Fin 2) * 67 ≤ (i 1).val ∧ (i 1).val < win1_1.index ⟨(i 0).val / 10000, ht⟩ (1 : Fin 2) * 67 + 67; omega

/-- THE OUTPUT ARRAY after the region is the rectifier of the input array as the region finds it. -/
theorem final (V : (c : Dev nD) → (b : Ref sig .tc) → Buf (Elt Ideal) ((c : Thread nD τ).loc b)) (c : Dev nD) :
    (dat1 (F := Ideal) V c).arrAt 1 cfg1.N = Cert.ReferenceIdeal.Gcn.leaky (F := Ideal) (V c main_v46) :=
  (dat1 (F := Ideal) V c).arrAt_eq_of_cover 1 _ (fun t _ => written_block_eq V c t) row_covered

end Cert.KernelIdeal.LeakyValue

end
-- ==== Proof.Matmul2Value.lean ====
/-
  The second matrix product, block by block, is the whole product.

  The region walks the 100000 rows of the hidden features h in 10 blocks of 10000 rows. At block t it multiplies rows
  10000 t … 10000 t + 9999 of h (all 67 columns) by the whole weight matrix W (67 by 7) and writes the 10000 by 7 result
  over the same rows of the output. Entry (r, j) of the output therefore is  ∑ k, h[r, k] · W[k, j]  over k below 67: the
  entry of the whole product h W. On the extended reals a change of float format is the identity, a reshape of a block
  to its own shape changes nothing, and both products are this same finite sum, term for term, so no finiteness of the
  entries is needed.
-/
import proofs.«148221_j25314537242763_1_alg».proof.Proof.Gen.KernelIdeal.Frame
import proofs.«148221_j25314537242763_1_alg».proof.Proof.GcnSpec
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Matmul2Value

open Cert.KernelIdeal Cert.KernelIdeal.Gen Idealize.ShloMosaic Idealize.ShloMosaic.TcCoe Idealize.SL.Sem
open Idealize.ShloMosaic.Pipeline (Dat Cfg Window)
open Idealize.ShloMosaic.ValueIdx

variable [Cert.ReferenceIdeal.Facts]

/-! ## The two products, entry by entry -/

/-- The dimension numbers of the product of one block of rows: [10000, 67] times [67, 7]. -/
abbrev blockDims : DotDims S10000x67 S67x7 S10000x7 := dot_S10000x67_S67x7_S10000x7_1_0_0_1_n_n
/-- The dimension numbers of the whole product: [100000, 67] times [67, 7]. -/
abbrev wholeDims : DotDims Cert.ReferenceIdeal.S100000x67 Cert.ReferenceIdeal.S67x7 Cert.ReferenceIdeal.S100000x7 :=
  Cert.ReferenceIdeal.dot_S100000x67_S67x7_S100000x7_1_0_0_1_n_n

/-- In the block product the left factor of entry (p, q) at contraction position k sits in row p … -/
theorem blockLhs_row (i : S10000x7.Idx) (q : blockDims.contr.Idx) : (blockDims.lhsIdx i q 0).val = (i 0).val := by
  unfold DotDims.lhsIdx
  rw [dif_neg (show ¬(0 : Fin S10000x67.rank) ∈ blockDims.lhsBatch by decide), dif_pos (show (0 : Fin S10000x67.rank) ∈ blockDims.lhsNonContracting by decide)]
  rfl
/-- … and column k; -/
theorem blockLhs_col (i : S10000x7.Idx) (q : blockDims.contr.Idx) : (blockDims.lhsIdx i q 1).val = (q ⟨0, by decide⟩).val :=
  blockDims.lhsIdx_val_of_single rfl i q
/-- the right factor sits in row k … -/
theorem blockRhs_row (i : S10000x7.Idx) (q : blockDims.contr.Idx) : (blockDims.rhsIdx i q 0).val = (q ⟨0, by decide⟩).val :=
  blockDims.rhsIdx_val_of_single rfl i q
/-- … and column q. -/
theorem blockRhs_col (i : S10000x7.Idx) (q : blockDims.contr.Idx) : (blockDims.rhsIdx i q 1).val = (i 1).val := by
  unfold DotDims.rhsIdx
  rw [dif_neg (show ¬(1 : Fin S67x7.rank) ∈ blockDims.rhsBatch by decide), dif_pos (show (1 : Fin S67x7.rank) ∈ blockDims.rhsNonContracting by decide)]
  rfl

/-- Entry (p, q) of the product of a block of 10000 rows with the weights: the block is first reshaped to its own
    shape, which changes nothing; both operands then change float format, the identity on the extended reals; the
    accumulator starts at zero, so the entry is the plain sum over the 67 contraction positions. -/
theorem blockProduct_apply (x0 : Vec Ideal S10000x67 .f32) (x1 : Vec Ideal S67x7 .f32) (p : Fin 10000) (q : Fin 7) :
    k2_pay1 x0 x1 (ix2 p q) = ∑ k : Fin 67, x0 (ix2 p k) * x1 (ix2 k q) := by
  unfold k2_pay1
  show FloatOps.matmul blockDims none (truncf (F := Ideal) .bf16 (shapeCast S10000x67 x0 _) bitsLt_bf16_f32) (truncf (F := Ideal) .bf16 x1 bitsLt_bf16_f32)
      (constant (F := Ideal) S10000x7 .f32 0x00000000#32) (ix2 p q) = _
  rw [shapeCast_self, Ideal.matmul_constant_zero_apply, ← Equiv.sum_comp (contrEquiv1 blockDims 67 rfl rfl).symm]
  refine Finset.sum_congr rfl fun k _ => ?_
  have hk := contrEquiv1_symm_val blockDims 67 rfl rfl k
  have el : blockDims.lhsIdx (ix2 p q) ((contrEquiv1 blockDims 67 rfl rfl).symm k) = ix2 p k := funext fun a => Fin.ext (by
    match a with
    | ⟨0, _⟩ => exact blockLhs_row _ _
    | ⟨1, _⟩ => exact (blockLhs_col _ _).trans hk)
  have er : blockDims.rhsIdx (ix2 p q) ((contrEquiv1 blockDims 67 rfl rfl).symm k) = ix2 k q := funext fun a => Fin.ext (by
    match a with
    | ⟨0, _⟩ => exact (blockRhs_row _ _).trans hk
    | ⟨1, _⟩ => exact blockRhs_col _ _)
  rw [el, er]
  rfl

/-- The same four coordinate facts for the whole product. -/
theorem wholeLhs_row (i : Cert.ReferenceIdeal.S100000x7.Idx) (q : wholeDims.contr.Idx) : (wholeDims.lhsIdx i q 0).val = (i 0).val := by
  unfold DotDims.lhsIdx
  rw [dif_neg (show ¬(0 : Fin Cert.ReferenceIdeal.S100000x67.rank) ∈ wholeDims.lhsBatch from List.not_mem_nil), dif_pos (show (0 : Fin Cert.ReferenceIdeal.S100000x67.rank) ∈ wholeDims.lhsNonContracting from List.mem_singleton.mpr rfl)]
  rfl
theorem wholeLhs_col (i : Cert.ReferenceIdeal.S100000x7.Idx) (q : wholeDims.contr.Idx) :
    (wholeDims.lhsIdx i q 1).val = (q ⟨0, (Nat.one_pos : 0 < wholeDims.contr.rank)⟩).val :=
  wholeDims.lhsIdx_val_of_single rfl i q
theorem wholeRhs_row (i : Cert.ReferenceIdeal.S100000x7.Idx) (q : wholeDims.contr.Idx) :
    (wholeDims.rhsIdx i q 0).val = (q ⟨0, (Nat.one_pos : 0 < wholeDims.contr.rank)⟩).val :=
  wholeDims.rhsIdx_val_of_single rfl i q
theorem wholeRhs_col (i : Cert.ReferenceIdeal.S100000x7.Idx) (q : wholeDims.contr.Idx) : (wholeDims.rhsIdx i q 1).val = (i 1).val := by
  unfold DotDims.rhsIdx
  rw [dif_neg (show ¬(1 : Fin Cert.ReferenceIdeal.S67x7.rank) ∈ wholeDims.rhsBatch from List.not_mem_nil), dif_pos (show (1 : Fin Cert.ReferenceIdeal.S67x7.rank) ∈ wholeDims.rhsNonContracting from List.mem_singleton.mpr rfl)]
  rfl

/-- Entry (r, q) of the whole product h W: the sum over k of h[r, k] · W[k, q]. -/
theorem wholeProduct_apply (x : Vec Ideal S100000x67 .f32) (w : Vec Ideal S67x7 .f32) (r : Fin 100000) (q : Fin 7) :
    Cert.ReferenceIdeal.Gcn.dot2 (F := Ideal) x w (ix2 r q) = ∑ k : Fin 67, x (ix2 r k) * w (ix2 k q) := by
  unfold Cert.ReferenceIdeal.Gcn.dot2
  show FloatOps.dotGeneral (F := Ideal) wholeDims none .single x w (ix2 r q) = _
  rw [Ideal.dotGeneral_apply, ← Equiv.sum_comp (contrEquiv1 wholeDims 67 rfl rfl).symm]
  refine Finset.sum_congr rfl fun k _ => ?_
  have hk := contrEquiv1_symm_val wholeDims 67 rfl rfl k
  have el : wholeDims.lhsIdx (ix2 r q) ((contrEquiv1 wholeDims 67 rfl rfl).symm k) = ix2 r k := funext fun a => Fin.ext (by
    match a with
    | ⟨0, _⟩ => exact wholeLhs_row _ _
    | ⟨1, _⟩ => exact (wholeLhs_col _ _).trans hk)
  have er : wholeDims.rhsIdx (ix2 r q) ((contrEquiv1 wholeDims 67 rfl rfl).symm k) = ix2 k q := funext fun a => Fin.ext (by
    match a with
    | ⟨0, _⟩ => exact (wholeRhs_row _ _).trans hk
    | ⟨1, _⟩ => exact wholeRhs_col _ _)
  rw [el, er]

/-- A BLOCK OF THE WHOLE PRODUCT. If x0 is rows 10000 b … 10000 b + 9999 of X and x1 is all of W, then entry j of the
    block product x0 x1 is entry i of X W whenever i is j moved down by 10000 b rows: the two sums agree term by term. -/
theorem blockProduct_eq_wholeProduct (X : Vec Ideal S100000x67 .f32) (W : Vec Ideal S67x7 .f32)
    (x0 : Vec Ideal S10000x67 .f32) (x1 : Vec Ideal S67x7 .f32) (b : Nat)
    (h0 : ∀ (p : Fin 10000) (k : Fin 67) (hb : b * 10000 + p.val < 100000), x0 (ix2 p k) = X (ix2 ⟨b * 10000 + p.val, hb⟩ k))
    (h1 : ∀ (k : Fin 67) (q : Fin 7), x1 (ix2 k q) = W (ix2 k q))
    (j : S10000x7.Idx) (i : S100000x7.Idx) (hi0 : (i 0).val = b * 10000 + (j 0).val) (hi1 : (i 1).val = (j 1).val) :
    k2_pay1 x0 x1 j = Cert.ReferenceIdeal.Gcn.dot2 (F := Ideal) X W i := by
  obtain ⟨p, q, rfl⟩ : ∃ (p : Fin 10000) (q : Fin 7), j = ix2 p q := ⟨j 0, j 1, eq_ix2 j⟩
  obtain ⟨r, q', rfl⟩ : ∃ (r : Fin 100000) (q' : Fin 7), i = ix2 r q' := ⟨i 0, i 1, eq_ix2 i⟩
  have hr : r.val = b * 10000 + p.val := hi0
  have hq : q'.val = q.val := hi1
  obtain rfl : q = q' := Fin.ext hq.symm
  have hb : b * 10000 + p.val < 100000 := hr ▸ r.isLt
  obtain rfl : r = ⟨b * 10000 + p.val, hb⟩ := Fin.ext hr
  rw [blockProduct_apply, wholeProduct_apply]
  refine Finset.sum_congr rfl fun k _ => ?_
  rw [h0 p k hb, h1]

/-! ## From the blocks to the array -/

/-- Every access inside the body starts at the corner of its buffer. -/
theorem zero_corner : (![0, 0] : Fin 2 → Nat) = fun _ => 0 := funext fun a => by fin_cases a <;> rfl

/-- Which block each window holds at grid point t: rows block t, the only column block, of h and of the output; the
    one block of W. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is rows 10000 t … 10000 t + 9999 of the whole product of the two arrays as the region
    finds them: the body's one store fills the output buffer with the block product of the two loaded blocks, the h
    block being those rows of h (row 10000 t + p of the array is row p of the block) and the W block all of W. -/
theorem written_block_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal)
      (Cert.ReferenceIdeal.Gcn.dot2 (F := Ideal) (V c main_v47) (V c main_arg4)) := by
  show (cfg2.win 2).cut (grid2.coords t) ((dat2 (F := Ideal) V c).after 2 t) = _
  rw [after2_2]
  unfold out2_2
  rw [View.canon_unit_zero zero_corner]
  simp only [View.ld_unit_zero (S := S10000x67) zero_corner, View.ld_unit_zero (S := S67x7) zero_corner]
  obtain ⟨e00, e01, e10, e11, e20, e21⟩ := block_indices t
  funext j
  refine blockProduct_eq_wholeProduct (V c main_v47) (V c main_arg4) (iblk2 V c 0 t) (iblk2 V c 1 t) t.val ?_ ?_ j
    (((cfg2.win 2).blk t).view.emb j) ?_ ?_
  · intro p k hb
    show V c main_v47 (((cfg2.win 0).blk t).view.emb (ix2 p k)) = _
    refine congrArg (V c main_v47) (funext fun a => Fin.ext ?_)
    match a with
    | ⟨0, _⟩ => show win2_0.index t (0 : Fin 2) * 10000 + 1 * p.val = t.val * 10000 + p.val; omega
    | ⟨1, _⟩ => show win2_0.index t (1 : Fin 2) * 67 + 1 * k.val = k.val; omega
  · intro k q
    show V c main_arg4 (((cfg2.win 1).blk t).view.emb (ix2 k q)) = _
    refine congrArg (V c main_arg4) (funext fun a => Fin.ext ?_)
    match a with
    | ⟨0, _⟩ => show win2_1.index t (0 : Fin 2) * 67 + 1 * k.val = k.val; omega
    | ⟨1, _⟩ => show win2_1.index t (1 : Fin 2) * 7 + 1 * q.val = q.val; omega
  · show win2_2.index t (0 : Fin 2) * 10000 + 1 * (j 0).val = t.val * 10000 + (j 0).val; omega
  · show win2_2.index t (1 : Fin 2) * 7 + 1 * (j 1).val = (j 1).val; omega

/-- An entry of the output lies in point t's block iff each of its coordinates lies in the block's range on its axis. -/
theorem mem_rowBlock (t : Fin cfg2.N) (i : S100000x7.Idx) :
    i ∈ ((cfg2.win 2).blk t).view.set ↔ ∀ a : Fin 2, win2_2.index t a * S10000x7.size a ≤ (i a).val ∧ (i a).val < win2_2.index t a * S10000x7.size a + S10000x7.size a := by
  show i ∈ ((View.whole main_v48).slice (win2_2.rect t)).set ↔ _
  rw [View.set_slice_whole, Rect.mem_set_unit]
  exact Iff.rfl

/-- EVERY ENTRY IS WRITTEN: row r lies in block r / 10000, and 10 blocks of 10000 rows are all 100000 rows. -/
theorem row_covered (i : S100000x7.Idx) :
    ∃ t : Fin cfg2.N, (cfg2.win 2).flush t = true ∧ i ∈ ((cfg2.win 2).blk t).view.set := by
  have hi0 : (i 0).val < 100000 := (i 0).isLt
  have hi1 : (i 1).val < 7 := (i 1).isLt
  have hN : cfg2.N = 10 := N_2
  have ht : (i 0).val / 10000 < cfg2.N := lt_of_lt_of_eq (by omega) hN.symm
  obtain ⟨e00, e01, e10, e11, e20, e21⟩ := block_indices ⟨(i 0).val / 10000, ht⟩
  have e20' : win2_2.index ⟨(i 0).val / 10000, ht⟩ (0 : Fin 2) = (i 0).val / 10000 := e20
  refine ⟨⟨(i 0).val / 10000, ht⟩, flush2_2 _, ?_⟩
  rw [mem_rowBlock]
  intro a
  match a with
  | ⟨0, _⟩ => show win2_2.index ⟨(i 0).val / 10000, ht⟩ (0 : Fin 2) * 10000 ≤ (i 0).val ∧ (i 0).val < win2_2.index ⟨(i 0).val / 10000, ht⟩ (0 : Fin 2) * 10000 + 10000; omega
  | ⟨1, _⟩ => show win2_2.index ⟨(i 0).val / 10000, ht⟩ (1 : Fin 2) * 7 ≤ (i 1).val ∧ (i 1).val < win2_2.index ⟨(i 0).val / 10000, ht⟩ (1 : Fin 2) * 7 + 7; omega

/-- THE OUTPUT ARRAY after the region is the whole product of h and W as the region finds them. -/
theorem final (V : (c : Dev nD) → (b : Ref sig .tc) → Buf (Elt Ideal) ((c : Thread nD τ).loc b)) (c : Dev nD) :
    (dat2 (F := Ideal) V c).arrAt 2 cfg2.N = Cert.ReferenceIdeal.Gcn.dot2 (F := Ideal) (V c main_v47) (V c main_arg4) :=
  (dat2 (F := Ideal) V c).arrAt_eq_of_cover 2 _ (fun t _ => written_block_eq V c t) row_covered

end Cert.KernelIdeal.Matmul2Value

end
-- ==== Proof.LibKeepdimsColumn.lean ====
/-
  The keepdims column forms, read at an index.

  A sum or a maximum over the last axis of an [a, b] array that keeps the reduced axis yields an [a, 1] column, which
  is then broadcast back along the rows. Five layout facts carry an index through that round trip, for any element
  type: the cast of an [a] vector to an [a, 1] column and the broadcast of an [a, 1] column to [a, b] in the vector
  dialect; and, in the host dialect, a scalar broadcast to any shape, an [a] vector placed as an [a, 1] column, and an
  [a, 1] column broadcast to [a, b]. Each reads its operand at the row coordinate alone.
-/
import Idealize.ShloMosaic.Lib.Pipeline.Value
import Idealize.ShloMosaic.Lib.ValueIdx

namespace Cert.Lib.KeepdimsColumn

open Idealize.ShloMosaic Idealize.ShloMosaic.ValueIdx

variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar broadcast to any shape reads the scalar everywhere. -/
theorem broadcastInDim_scalar_apply {t : Shape} (h : (⟨0, ![]⟩ : Shape).BroadcastsInDim t (![] : Fin 0 → Fin t.rank))
    (x : (⟨0, ![]⟩ : Shape).Idx → α) (i : t.Idx) : broadcastInDim t ![] h x i = x ix0 :=
  broadcastInDim_apply _ h x i ix0 fun ax => ax.elim0

/-- An [a] array placed as the column of an [a, 1] array reads, at (p, u), the operand at p. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An [a, 1] column broadcast along the rows of an [a, b] array reads, at (p, c), the column at p. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepdimsColumn
-- ==== Proof.SoftmaxValue.lean ====
/-
  Region 3 of the kernel program: the row-wise log-softmax of a [100000, 7] array, computed block by block over ten
  blocks of 10000 rows.

  Entry (r, j) of the result is  v[r, j] - M_r - log (sum over k of exp (v[r, k] - M_r)),  with M_r the maximum of the
  seven entries of row r (taken from minus infinity). Both programs compute exactly this at the extended reals:
  the kernel on the block that holds row r (row p = r mod 10000 of block r / 10000: the same seven numbers), the
  reference on the whole array, where it takes the maximum once more against minus infinity (which changes nothing:
  a fold of max is never below its starting value) and starts its sum at zero.

  The module reads the kernel's payload at an entry, reads the reference's stage function at an entry, joins the two
  through one row function, and then passes from the ten written blocks to the whole array: the blocks tile the rows.
-/
import proofs.«148221_j25314537242763_1_alg».proof.Proof.Gen.KernelIdeal.Frame
import proofs.«148221_j25314537242763_1_alg».proof.Proof.GcnSpec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import proofs.«148221_j25314537242763_1_alg».proof.Proof.LibKeepdimsColumn

noncomputable section

namespace Cert.KernelIdeal.SoftmaxValue

open Cert.KernelIdeal Cert.KernelIdeal.Gen Idealize.ShloMosaic Idealize.ShloMosaic.TcCoe Idealize.SL.Sem
open Idealize.ShloMosaic.Pipeline (Dat Cfg Window)
open Idealize.ShloMosaic.ValueIdx
open Cert.Lib.KeepdimsColumn

variable [Cert.ReferenceIdeal.Facts]

/-- The maximum of a row of seven numbers, never below minus infinity's word. -/
def rowMaxOf (f : Fin 7 → EReal) : EReal :=
  (Finset.univ : Finset (Fin 7)).fold max (Ideal.ofBits .f32 0xFF800000#32) f

/-- Log-softmax of one row at column j. -/
def lsmRow (f : Fin 7 → EReal) (j : Fin 7) : EReal :=
  (f j - rowMaxOf f) - Ideal.log (∑ k : Fin 7, Ideal.exp (f k - rowMaxOf f))

/-! ## The kernel's payload at an entry -/

/-- Row index p with column k inserted, as the reduction over axis 1 names it. -/
theorem lift_row (p : Fin 10000) (k : Fin 7) :
    (Facts₀.reduces_S10000x7_S10000).lift (ix1 p) k = ix2 p k :=
  funext fun a => Fin.ext (by match a with | ⟨0, _⟩ => rfl | ⟨1, _⟩ => rfl)

theorem kernel_rowMax (x : FVec Ideal S10000x7 .f32) (p : Fin 10000) :
    multiReduction (F := Ideal) .maximumf [1] S10000 x 0xFF800000#32 Facts₀.reduces_S10000x7_S10000 (.inl rfl) rfl (ix1 p)
      = (Finset.univ : Finset (Fin 7)).fold max (Ideal.ofBits .f32 0xFF800000#32) (fun k => x (ix2 p k)) := by
  refine (Ideal.multiReduction_maximumf_single x _ Facts₀.reduces_S10000x7_S10000 (.inl rfl) rfl (ix1 p)).trans ?_
  refine congrArg (Finset.fold max (Ideal.ofBits .f32 0xFF800000#32) · (Finset.univ : Finset (Fin 7))) ?_
  exact funext fun k => congrArg x (lift_row p k)

theorem kernel_rowSum (x : FVec Ideal S10000x7 .f32) (p : Fin 10000) :
    multiReduction (F := Ideal) .add [1] S10000 x 0x00000000#32 Facts₀.reduces_S10000x7_S10000 (.inl rfl) rfl (ix1 p)
      = ∑ k : Fin 7, x (ix2 p k) := by
  refine (Ideal.multiReduction_add_single x _ Facts₀.reduces_S10000x7_S10000 (.inl rfl) rfl (ix1 p)).trans ?_
  exact Finset.sum_congr rfl fun k _ => congrArg x (lift_row p k)

/-- The body's payload at row p, column j: the log-softmax of that row of the loaded block. -/
theorem kernel_pay (x : Vec Ideal S10000x7 .f32) (p : Fin 10000) (j : Fin 7) :
    k3_pay1 (F := Ideal) x (ix2 p j) = lsmRow (fun k => x (ix2 p k)) j := by
  have hmax : ∀ (q : Fin 10000) (c : Fin 7),
      broadcastTo S10000x7 (shapeCast S10000x1 (multiReduction (F := Ideal) .maximumf [1] S10000 x 0xFF800000#32
        Facts₀.reduces_S10000x7_S10000 (.inl rfl) rfl) Facts₀.shapeCasts_S10000_S10000x1) Facts₀.broadcasts_S10000x1_S10000x7 (ix2 q c)
        = rowMaxOf (fun k => x (ix2 q k)) :=
    fun q c => (broadcastTo_a1_ab_apply _ _ q c).trans ((shapeCast_a_a1_apply _ _ q 0).trans (kernel_rowMax x q))
  unfold k3_pay1
  simp only [shapeCast_self]
  generalize broadcastTo S10000x7 (shapeCast S10000x1 (multiReduction (F := Ideal) .maximumf [1] S10000 x 0xFF800000#32
        Facts₀.reduces_S10000x7_S10000 (.inl rfl) rfl) Facts₀.shapeCasts_S10000_S10000x1) Facts₀.broadcasts_S10000x1_S10000x7 = B at hmax ⊢
  rw [subf_apply, subf_apply, hmax p j, broadcastTo_a1_ab_apply]
  show x (ix2 p j) - rowMaxOf (fun k => x (ix2 p k))
      - Ideal.log (shapeCast S10000x1 (multiReduction (F := Ideal) .add [1] S10000 (exp (subf x B)) 0x00000000#32
          Facts₀.reduces_S10000x7_S10000 (.inl rfl) rfl) Facts₀.shapeCasts_S10000_S10000x1 (ix2 p (0 : Fin 1))) = _
  rw [shapeCast_a_a1_apply, kernel_rowSum]
  unfold lsmRow
  refine congrArg (fun s => x (ix2 p j) - rowMaxOf (fun k => x (ix2 p k)) - Ideal.log s) (Finset.sum_congr rfl fun k _ => ?_)
  show Ideal.exp (x (ix2 p k) - B (ix2 p k)) = _
  rw [hmax p k]

/-! ## The reference's stage function at an entry -/

theorem host_reduces : S100000x7.Reduces [1] S100000 := by decide

/-- Row index r with column k inserted, as the host reduction over axis 1 names it. -/
theorem host_lift_row (r : Fin 100000) (k : Fin 7) : host_reduces.lift (ix1 r) k = ix2 r k :=
  funext fun a => Fin.ext (by match a with | ⟨0, _⟩ => rfl | ⟨1, _⟩ => rfl)

/-- The host's maximum over axis 1 at row r: the fold of max over the row's seven entries. -/
theorem host_rowMax (v : FVec Ideal S100000x7 .f32) (init : Cert.ReferenceIdeal.S_.Idx → Ideal .f32)
    (h' : S100000x7.ReducesTo [1] S100000) (hu : 0 < Cert.ReferenceIdeal.S_.numel) (r : Fin 100000) :
    Host.reduce (FloatOps.maximumf (F := Ideal) (φ := .f32)) v init h' hu (ix1 r)
      = (Finset.univ : Finset (Fin 7)).fold max (init (Shape.Idx.first hu)) (fun k => v (ix2 r k)) := by
  refine (Host.reduce_eq_fold_single (FloatOps.maximumf (F := Ideal) (φ := .f32)) v init h' host_reduces hu (ix1 r)).trans ?_
  exact congrArg (Finset.fold max (init (Shape.Idx.first hu)) · (Finset.univ : Finset (Fin 7)))
    (funext fun k => congrArg v (host_lift_row r k))

/-- The host's sum over axis 1 at row r: the initial value plus the sum of the row's seven entries. -/
theorem host_rowSum (x : FVec Ideal S100000x7 .f32) (init : Cert.ReferenceIdeal.S_.Idx → Ideal .f32)
    (h' : S100000x7.ReducesTo [1] S100000) (hu : 0 < Cert.ReferenceIdeal.S_.numel) (r : Fin 100000) :
    Host.reduceAdd (F := Ideal) x init h' hu (ix1 r) = init (Shape.Idx.first hu) + ∑ k : Fin 7, x (ix2 r k) := by
  show Ideal.hostReduceAdd h' x (init (Shape.Idx.first hu)) (ix1 r) = _
  refine (Ideal.hostReduceAdd_single h' host_reduces x _ (ix1 r)).trans ?_
  exact congrArg (init (Shape.Idx.first hu) + ·) (Finset.sum_congr rfl fun k _ => congrArg x (host_lift_row r k))

/-- The host's exponential and logarithm, entry by entry. -/
theorem host_exp_apply (x : FVec Ideal S100000x7 .f32) (i : S100000x7.Idx) : Host.exp (F := Ideal) x i = Ideal.exp (x i) := rfl

theorem host_log_apply {s : Shape} (x : FVec Ideal s .f32) (i : s.Idx) : Host.log (F := Ideal) x i = Ideal.log (x i) := rfl

/-- The host's sum of a row's exponentials. -/
theorem host_rowSumExp (s : FVec Ideal S100000x7 .f32) (init : Cert.ReferenceIdeal.S_.Idx → Ideal .f32)
    (h' : S100000x7.ReducesTo [1] S100000) (hu : 0 < Cert.ReferenceIdeal.S_.numel) (r : Fin 100000) :
    Host.reduceAdd (F := Ideal) (Host.exp s) init h' hu (ix1 r)
      = init (Shape.Idx.first hu) + ∑ k : Fin 7, Ideal.exp (s (ix2 r k)) :=
  host_rowSum (Host.exp s) init h' hu r

/-- A fold of max is never below its starting value, so one more max against that value changes nothing. -/
theorem max_start_fold (b : EReal) (f : Fin 7 → EReal) :
    max b ((Finset.univ : Finset (Fin 7)).fold max b f) = (Finset.univ : Finset (Fin 7)).fold max b f :=
  max_eq_right ((Finset.le_fold_max _).2 (Or.inl le_rfl))

theorem ref_rowMax (v : FVec Ideal S100000x7 .f32) (r : Fin 100000) (j : Fin 7) :
    Cert.ReferenceIdeal.Gcn.rowMax (F := Ideal) v (ix2 r j) = rowMaxOf (fun k => v (ix2 r k)) := by
  unfold Cert.ReferenceIdeal.Gcn.rowMax
  refine (broadcastInDim_a1_ab_apply _ _ r j).trans ((broadcastInDim_a_a1_apply _ _ r 0).trans ?_)
  rw [maximumf_apply, broadcastInDim_scalar_apply, constant_apply]
  refine (congrArg (max (Ideal.ofBits .f32 0xFF800000#32)) (host_rowMax v _ _ _ r)).trans ?_
  exact max_start_fold _ _

theorem ref_rowLse (s : FVec Ideal S100000x7 .f32) (r : Fin 100000) (j : Fin 7) :
    Cert.ReferenceIdeal.Gcn.rowLse (F := Ideal) s (ix2 r j) = Ideal.log (∑ k : Fin 7, Ideal.exp (s (ix2 r k))) := by
  unfold Cert.ReferenceIdeal.Gcn.rowLse
  refine (broadcastInDim_a1_ab_apply _ _ r j).trans ?_
  refine (host_log_apply _ _).trans ?_
  refine (congrArg Ideal.log ((broadcastInDim_a_a1_apply _ _ r 0).trans (host_rowSumExp s _ _ _ r))).trans ?_
  rw [constant_apply, Ideal.ofBits_zero_f32, zero_add]

/-- The reference's log-softmax at row r, column j. -/
theorem ref_at (v : FVec Ideal S100000x7 .f32) (r : Fin 100000) (j : Fin 7) :
    Cert.ReferenceIdeal.Gcn.logSoftmax (F := Ideal) v (ix2 r j) = lsmRow (fun k => v (ix2 r k)) j := by
  unfold Cert.ReferenceIdeal.Gcn.logSoftmax
  rw [subf_apply, subf_apply, ref_rowLse, ref_rowMax]
  unfold lsmRow
  refine congrArg (fun s => v (ix2 r j) - rowMaxOf (fun k => v (ix2 r k)) - Ideal.log s) (Finset.sum_congr rfl fun k _ => ?_)
  rw [subf_apply, ref_rowMax]

/-- The body's payload on a block whose row p holds the same seven numbers as row r of the array is the reference's
    log-softmax of the array at row r. -/
theorem pay_eq (x : Vec Ideal S10000x7 .f32) (v : FVec Ideal S100000x7 .f32) (p : Fin 10000) (r : Fin 100000) (j : Fin 7)
    (hrow : ∀ k : Fin 7, x (ix2 p k) = v (ix2 r k)) :
    k3_pay1 (F := Ideal) x (ix2 p j) = Cert.ReferenceIdeal.Gcn.logSoftmax (F := Ideal) v (ix2 r j) := by
  rw [kernel_pay, ref_at]
  exact congrArg (lsmRow · j) (funext hrow)

/-! ## From the ten blocks to the array -/

/-- The store's offset is the origin. -/
theorem origin : (![0, 0] : Fin 2 → Nat) = fun _ => 0 := funext fun a => by fin_cases a <;> rfl

/-- At every grid point the input block and the output block have the same block index: block row t (at most 9),
    block column 0. -/
theorem block_index : ∀ t : Fin cfg3.N, win3_0.index t (0 : Fin 2) = win3_1.index t (0 : Fin 2)
    ∧ win3_0.index t (1 : Fin 2) = win3_1.index t (1 : Fin 2)
    ∧ win3_1.index t (0 : Fin 2) ≤ 9 ∧ win3_1.index t (1 : Fin 2) = 0 :=
  (by decide +kernel : ∀ t : Fin grid3.N, _)

/-- Every one of the ten row blocks is some grid point's. -/
theorem block_onto : ∀ q : Fin 10, ∃ t : Fin cfg3.N, win3_1.index t = ![q.val, 0] :=
  (by decide +kernel : ∀ q : Fin 10, ∃ t : Fin grid3.N, win3_1.index t = ![q.val, 0])

/-- What grid point t writes back is block t of the log-softmax of the whole input array: row p of the block is row
    10000 * (block row) + p of the array, the same seven numbers, and the payload looks at nothing else. -/
theorem written_block (V : (c : Dev nD) → (b : Ref sig .tc) → Buf (Elt Ideal) ((c : Thread nD τ).loc b)) (c : Dev nD) (t : Fin cfg3.N) :
    (dat3 (F := Ideal) V c).flushed 1 t
      = ((cfg3.win 1).blk t).view.read (Elt Ideal) (Cert.ReferenceIdeal.Gcn.logSoftmax (F := Ideal) (V c main_v94)) := by
  show (cfg3.win 1).cut (grid3.coords t) ((dat3 V c).after 1 t) = _
  rw [after3_1]
  unfold out3_1
  rw [View.canon_unit_zero origin]
  simp only [View.ld_unit_zero (S := S10000x7) origin]
  obtain ⟨e0, e1, e2, e3⟩ := block_index t
  refine funext fun (y : S10000x7.Idx) => ?_
  obtain ⟨p, j, rfl⟩ : ∃ (p : Fin 10000) (j : Fin 7), y = ix2 p j := ⟨y 0, y 1, eq_ix2 y⟩
  show k3_pay1 (iblk3 V c 0 t) (ix2 p j)
    = Cert.ReferenceIdeal.Gcn.logSoftmax (F := Ideal) (V c main_v94) (((cfg3.win 1).blk t).view.emb (ix2 p j))
  have hp : p.val < 10000 := p.isLt
  have hemb : ((cfg3.win 1).blk t).view.emb (ix2 p j)
      = ix2 (⟨win3_1.index t (0 : Fin 2) * 10000 + p.val, by omega⟩ : Fin 100000) j := by
    funext a; apply Fin.ext
    match a with
    | ⟨0, _⟩ => show win3_1.index t (0 : Fin 2) * 10000 + 1 * p.val = win3_1.index t (0 : Fin 2) * 10000 + p.val; omega
    | ⟨1, _⟩ => show win3_1.index t (1 : Fin 2) * 7 + 1 * j.val = j.val; omega
  rw [hemb]
  refine pay_eq _ _ p _ j fun k => ?_
  show V c main_v94 (((cfg3.win 0).blk t).view.emb (ix2 p k)) = V c main_v94 (ix2 _ k)
  refine congrArg (V c main_v94) ?_
  funext a; apply Fin.ext
  match a with
  | ⟨0, _⟩ => show win3_0.index t (0 : Fin 2) * 10000 + 1 * p.val = win3_1.index t (0 : Fin 2) * 10000 + p.val; omega
  | ⟨1, _⟩ => show win3_0.index t (1 : Fin 2) * 7 + 1 * k.val = k.val; omega

/-- An index of the array is in point t's block iff each coordinate is in the block's range on its axis. -/
theorem mem_row_block (t : Fin cfg3.N) (i : S100000x7.Idx) :
    i ∈ ((cfg3.win 1).blk t).view.set ↔ ∀ a : Fin 2, win3_1.index t a * S10000x7.size a ≤ (i a).val ∧ (i a).val < win3_1.index t a * S10000x7.size a + S10000x7.size a := by
  show i ∈ ((View.whole main_v95).slice (win3_1.rect t)).set ↔ _
  rw [View.set_slice_whole, Rect.mem_set_unit]
  exact Iff.rfl

/-- Row r of the array lies in the block of the point whose block row is r / 10000: the ten blocks tile the rows. -/
theorem cover (i : S100000x7.Idx) :
    ∃ t : Fin cfg3.N, (cfg3.win 1).flush t = true ∧ i ∈ ((cfg3.win 1).blk t).view.set := by
  have hi0 : (i 0).val < 100000 := (i 0).isLt
  have hi1 : (i 1).val < 7 := (i 1).isLt
  obtain ⟨t, ht⟩ := block_onto ⟨(i 0).val / 10000, by omega⟩
  have q0 : win3_1.index t (0 : Fin 2) = (i 0).val / 10000 := congrFun ht 0
  have q1 : win3_1.index t (1 : Fin 2) = 0 := congrFun ht 1
  refine ⟨t, flush3_1 t, ?_⟩
  rw [mem_row_block]
  intro a
  match a with
  | ⟨0, _⟩ => show win3_1.index t (0 : Fin 2) * 10000 ≤ (i 0).val ∧ (i 0).val < win3_1.index t (0 : Fin 2) * 10000 + 10000; omega
  | ⟨1, _⟩ => show win3_1.index t (1 : Fin 2) * 7 ≤ (i 1).val ∧ (i 1).val < win3_1.index t (1 : Fin 2) * 7 + 7; omega

/-- The array after the region is the log-softmax of the array before it. -/
theorem final (V : (c : Dev nD) → (b : Ref sig .tc) → Buf (Elt Ideal) ((c : Thread nD τ).loc b)) (c : Dev nD) :
    (dat3 (F := Ideal) V c).arrAt 1 cfg3.N = Cert.ReferenceIdeal.Gcn.logSoftmax (F := Ideal) (V c main_v94) :=
  (dat3 (F := Ideal) V c).arrAt_eq_of_cover 1 _ (fun t _ => written_block V c t) cover

end Cert.KernelIdeal.SoftmaxValue

end
-- ==== Proof.OutValue.lean ====
/-
  What the idealized kernel leaves in its result buffer: the model of its six argument arrays.

  The run's last segment boundary names the result buffer's contents as a fold through the segments. Each
  region's output array, after its write-backs, is one stage function of the arrays the region found (the two
  matrix products, the leaky rectifier, the row-wise log-softmax); each host stretch leaves the graph
  convolution of the product before it; and the edge table, the weights and the biases reach every segment
  unchanged, no earlier segment writing them. Composed, the six stages are the model.
-/
import proofs.«148221_j25314537242763_1_alg».proof.Proof.Gen.KernelIdeal.Frame
import proofs.«148221_j25314537242763_1_alg».proof.Proof.GcnSpec
import proofs.«148221_j25314537242763_1_alg».proof.Proof.HostStretch
import proofs.«148221_j25314537242763_1_alg».proof.Proof.Matmul1Value
import proofs.«148221_j25314537242763_1_alg».proof.Proof.LeakyValue
import proofs.«148221_j25314537242763_1_alg».proof.Proof.Matmul2Value
import proofs.«148221_j25314537242763_1_alg».proof.Proof.SoftmaxValue
import Idealize.ShloMosaic.Lib.StableHlo.Run
import Idealize.ShloMosaic.PureOps.Ideal

noncomputable section

namespace Cert.KernelIdeal.OutValue

open Cert.KernelIdeal Cert.KernelIdeal.Gen Idealize.ShloMosaic Idealize.ShloMosaic.TcCoe Idealize.SL.Sem Idealize.ShloMosaic.StableHlo

variable [Cert.ReferenceIdeal.Facts]

variable (m : (ℓ : Loc nD τ sig) → Buf (Elt Ideal) ℓ) (ρ : Dev nD → PrngReg)

/-- The result buffer's contents at the last boundary: the model of the six argument arrays as launched.
    Read backwards through the segments: the last region's array is the log-softmax of what the second
    stretch left, that the 7-feature convolution of the second product, that product is of the rectifier's
    array and the second weights, the rectifier's of what the first stretch left, that the 67-feature
    convolution of the first product of the inputs and the first weights; the arguments are read through the
    segments back to the launch memory. -/
theorem out_eq (c : Dev nD) :
    W10 m ρ c (Proc.devRef .tc main_v95)
      = Cert.ReferenceIdeal.Gcn.model (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  -- the arguments the first stretch and the later segments read, at the first region's exit
  have a1 : W1 m ρ c (Proc.devRef .tc main_arg1) = m ((c.tc : Thread nD τ).loc main_arg1) := W1_of_ne m ρ c main_arg1 (by decide)
  have a3 : W1 m ρ c (Proc.devRef .tc main_arg3) = m ((c.tc : Thread nD τ).loc main_arg3) := W1_of_ne m ρ c main_arg3 (by decide)
  have a4 : W1 m ρ c (Proc.devRef .tc main_arg4) = m ((c.tc : Thread nD τ).loc main_arg4) := W1_of_ne m ρ c main_arg4 (by decide)
  have a5 : W1 m ρ c (Proc.devRef .tc main_arg5) = m ((c.tc : Thread nD τ).loc main_arg5) := W1_of_ne m ρ c main_arg5 (by decide)
  -- the first product
  have e1 : W1 m ρ c (Proc.devRef .tc main_v0)
      = Cert.ReferenceIdeal.Gcn.dot1 (F := Ideal) (m ((c.tc : Thread nD τ).loc main_arg0)) (m ((c.tc : Thread nD τ).loc main_arg2)) :=
    (W1_arr m ρ c 2).trans (Cert.KernelIdeal.Matmul1Value.final (V0 m ρ) c)
  -- the first stretch
  have e4 : V4 m ρ c main_v46 = Cert.ReferenceIdeal.Gcn.conv67 (F := Ideal) (Cert.ReferenceIdeal.Gcn.dot1 (F := Ideal) (m ((c.tc : Thread nD τ).loc main_arg0)) (m ((c.tc : Thread nD τ).loc main_arg2)))
      (m ((c.tc : Thread nD τ).loc main_arg1)) (m ((c.tc : Thread nD τ).loc main_arg3)) := by
    show after hostOps1_2 (after hostOps1_1 (after hostOps1 (W1 m ρ c))) (Proc.devRef .tc main_v46) = _
    rw [Cert.KernelIdeal.HostStretch.stretch1, e1, a1, a3]
  have b1 : W4 m ρ c (Proc.devRef .tc main_arg1) = m ((c.tc : Thread nD τ).loc main_arg1) :=
    (Cert.KernelIdeal.HostStretch.keep1_arg1 (W1 m ρ c)).trans a1
  have b4 : W4 m ρ c (Proc.devRef .tc main_arg4) = m ((c.tc : Thread nD τ).loc main_arg4) :=
    (Cert.KernelIdeal.HostStretch.keep1_arg4 (W1 m ρ c)).trans a4
  have b5 : W4 m ρ c (Proc.devRef .tc main_arg5) = m ((c.tc : Thread nD τ).loc main_arg5) :=
    (Cert.KernelIdeal.HostStretch.keep1_arg5 (W1 m ρ c)).trans a5
  -- the rectifier
  have e5 : V5 m ρ c main_v47 = Cert.ReferenceIdeal.Gcn.leaky (F := Ideal) (V4 m ρ c main_v46) :=
    (W5_arr m ρ c 1).trans (Cert.KernelIdeal.LeakyValue.final (V4 m ρ) c)
  have c1 : W5 m ρ c (Proc.devRef .tc main_arg1) = m ((c.tc : Thread nD τ).loc main_arg1) := (W5_of_ne m ρ c main_arg1 (by decide)).trans b1
  have c4 : V5 m ρ c main_arg4 = m ((c.tc : Thread nD τ).loc main_arg4) := (W5_of_ne m ρ c main_arg4 (by decide)).trans b4
  have c5 : W5 m ρ c (Proc.devRef .tc main_arg5) = m ((c.tc : Thread nD τ).loc main_arg5) := (W5_of_ne m ρ c main_arg5 (by decide)).trans b5
  -- the second product
  have e6 : W6 m ρ c (Proc.devRef .tc main_v48) = Cert.ReferenceIdeal.Gcn.dot2 (F := Ideal) (V5 m ρ c main_v47) (V5 m ρ c main_arg4) :=
    (W6_arr m ρ c 2).trans (Cert.KernelIdeal.Matmul2Value.final (V5 m ρ) c)
  have d1 : W6 m ρ c (Proc.devRef .tc main_arg1) = m ((c.tc : Thread nD τ).loc main_arg1) := (W6_of_ne m ρ c main_arg1 (by decide)).trans c1
  have d5 : W6 m ρ c (Proc.devRef .tc main_arg5) = m ((c.tc : Thread nD τ).loc main_arg5) := (W6_of_ne m ρ c main_arg5 (by decide)).trans c5
  -- the second stretch
  have e9 : V9 m ρ c main_v94 = Cert.ReferenceIdeal.Gcn.conv7 (F := Ideal) (W6 m ρ c (Proc.devRef .tc main_v48)) (m ((c.tc : Thread nD τ).loc main_arg1)) (m ((c.tc : Thread nD τ).loc main_arg5)) := by
    show after hostOps3_2 (after hostOps3_1 (after hostOps3 (W6 m ρ c))) (Proc.devRef .tc main_v94) = _
    rw [Cert.KernelIdeal.HostStretch.stretch2, d1, d5]
  -- the log-softmax, and the chain put together
  refine (W10_arr m ρ c 1).trans ((Cert.KernelIdeal.SoftmaxValue.final (V9 m ρ) c).trans ?_)
  rw [e9, e6, e5, c4, e4]
  rfl

end Cert.KernelIdeal.OutValue

end
-- ==== Proof.RefRun.lean ====
/-
  The reference program's run, read back as one value.

  The program is a straight line of 141 whole-array operations on one device: a matrix product, a graph
  convolution on 67 features (edge endpoints with self-loops, in-degrees, inverse square roots, edge weights,
  gather, weigh, scatter-add, bias), a leaky rectifier, a second product, the same convolution on 7 features, and a
  row-wise log-softmax. Cut into these six stretches, each stretch is a pure function of the buffers it reads:
  from any contents it leaves in its result buffer the corresponding stage of the model applied to what it found,
  and it leaves every buffer it does not write untouched. Composing the six equations gives the result buffer as
  the model of the six arguments, and the arguments themselves unchanged; every weakly fair execution of the
  program terminates in such a state.
-/
import proofs.«148221_j25314537242763_1_alg».proof.Proof.GcnSpec
import proofs.«148221_j25314537242763_1_alg».proof.Proof.Gen.ReferenceIdeal
import Idealize.ShloMosaic.Lib.StableHlo.Run

set_option Elab.async false

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The first product: the node features times the first weight matrix. -/
abbrev s0 : List (HloOp τ sig (Elt F)) :=
  [ StableHlo.binary main_arg0 main_arg2 main_v0 ((fun l r => Host.dotGeneral dot_S100000x1433_S1433x67_S100000x67_1_0_0_1_n_n none l r) : (⟨S100000x1433, .f32⟩ : BufTy).Contents (Elt F) → (⟨S1433x67, .f32⟩ : BufTy).Contents (Elt F) → (⟨S100000x67, .f32⟩ : BufTy).Contents (Elt F)) ]

/-- The first convolution: the edge endpoints with the self-loops appended, the in-degrees and their inverse square roots, the edge weights, the gathered rows weighed and summed at the targets, and the bias. -/
abbrev s1 : List (HloOp τ sig (Elt F)) :=
  [ StableHlo.nullary main_v1 (iotaInDim S100000 32 0),
    StableHlo.unary main_arg1 main_v2 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v2 main_v3 rfl shapeCasts_S1x3200000_S3200000,
    StableHlo.binary main_v3 main_v1 main_v4 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v5 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v5 main_v6 rfl shapeCasts_S1x3200000_S3200000,
    StableHlo.binary main_v6 main_v1 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v8 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S3300000x1 ![0] bcast_S3300000_S3300000x1_0 : (⟨S3300000, .i32⟩ : BufTy).Contents (Elt F) → (⟨S3300000x1, .i32⟩ : BufTy).Contents (Elt F)),
    StableHlo.ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 (broadcastInDim S100000 ![] bcast_S_S100000),
    StableHlo.TRef.ternary (.of main_v13 : StableHlo.TRef sig ⟨S100000, .i1⟩) (.of main_v14 : StableHlo.TRef sig ⟨S100000, .f32⟩) main_call0.v0 main_call0.v1 select,
    StableHlo.nullary main_c (constantI S_ 32 0#32),
    StableHlo.unary main_c main_v16 (broadcastInDim S3300000 ![] bcast_S_S3300000 : (⟨S_, .i32⟩ : BufTy).Contents (Elt F) → (⟨S3300000, .i32⟩ : BufTy).Contents (Elt F)),
    StableHlo.binary main_v4 main_v16 main_v17 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v18 (broadcastInDim S3300000 ![] bcast_S_S3300000 : (⟨S_, .i32⟩ : BufTy).Contents (Elt F) → (⟨S3300000, .i32⟩ : BufTy).Contents (Elt F)),
    StableHlo.binary main_v4 main_v18 main_v19 (addi : (⟨S3300000, .i32⟩ : BufTy).Contents (Elt F) → (⟨S3300000, .i32⟩ : BufTy).Contents (Elt F) → (⟨S3300000, .i32⟩ : BufTy).Contents (Elt F)),
    StableHlo.ternary main_v17 main_v19 main_v4 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v20 main_v21 (broadcastInDim S3300000x1 ![0] bcast_S3300000_S3300000x1_0 : (⟨S3300000, .i32⟩ : BufTy).Contents (Elt F) → (⟨S3300000x1, .i32⟩ : BufTy).Contents (Elt F)),
    StableHlo.binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_4 (constantI S_ 32 0#32),
    StableHlo.unary main_c_4 main_v23 (broadcastInDim S3300000 ![] bcast_S_S3300000 : (⟨S_, .i32⟩ : BufTy).Contents (Elt F) → (⟨S3300000, .i32⟩ : BufTy).Contents (Elt F)),
    StableHlo.binary main_v7 main_v23 main_v24 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v25 (broadcastInDim S3300000 ![] bcast_S_S3300000 : (⟨S_, .i32⟩ : BufTy).Contents (Elt F) → (⟨S3300000, .i32⟩ : BufTy).Contents (Elt F)),
    StableHlo.binary main_v7 main_v25 main_v26 (addi : (⟨S3300000, .i32⟩ : BufTy).Contents (Elt F) → (⟨S3300000, .i32⟩ : BufTy).Contents (Elt F) → (⟨S3300000, .i32⟩ : BufTy).Contents (Elt F)),
    StableHlo.ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v27 main_v28 (broadcastInDim S3300000x1 ![0] bcast_S3300000_S3300000x1_0 : (⟨S3300000, .i32⟩ : BufTy).Contents (Elt F) → (⟨S3300000x1, .i32⟩ : BufTy).Contents (Elt F)),
    StableHlo.binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v22 main_v29 main_v30 (mulf : (⟨S3300000, .f32⟩ : BufTy).Contents (Elt F) → (⟨S3300000, .f32⟩ : BufTy).Contents (Elt F) → (⟨S3300000, .f32⟩ : BufTy).Contents (Elt F)),
    StableHlo.nullary main_c_6 (constantI S_ 32 0#32),
    StableHlo.unary main_c_6 main_v31 (broadcastInDim S3300000 ![] bcast_S_S3300000 : (⟨S_, .i32⟩ : BufTy).Contents (Elt F) → (⟨S3300000, .i32⟩ : BufTy).Contents (Elt F)),
    StableHlo.binary main_v4 main_v31 main_v32 (cmpi .slt : (⟨S3300000, .i32⟩ : BufTy).Contents (Elt F) → (⟨S3300000, .i32⟩ : BufTy).Contents (Elt F) → (⟨S3300000, .i1⟩ : BufTy).Contents (Elt F)),
    StableHlo.nullary main_c_7 (constantI S_ 32 100000#32),
    StableHlo.unary main_c_7 main_v33 (broadcastInDim S3300000 ![] bcast_S_S3300000 : (⟨S_, .i32⟩ : BufTy).Contents (Elt F) → (⟨S3300000, .i32⟩ : BufTy).Contents (Elt F)),
    StableHlo.binary main_v4 main_v33 main_v34 (addi : (⟨S3300000, .i32⟩ : BufTy).Contents (Elt F) → (⟨S3300000, .i32⟩ : BufTy).Contents (Elt F) → (⟨S3300000, .i32⟩ : BufTy).Contents (Elt F)),
    StableHlo.ternary main_v32 main_v34 main_v4 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v35 main_v36 (broadcastInDim S3300000x1 ![0] bcast_S3300000_S3300000x1_0 : (⟨S3300000, .i32⟩ : BufTy).Contents (Elt F) → (⟨S3300000x1, .i32⟩ : BufTy).Contents (Elt F)),
    StableHlo.binary main_v0 main_v36 main_v37 ((fun x i => Host.gather gather_S100000x67_S3300000x1_S3300000x67_1_0_n_n_0_1_167 x i) : (⟨S100000x67, .f32⟩ : BufTy).Contents (Elt F) → (⟨S3300000x1, .i32⟩ : BufTy).Contents (Elt F) → (⟨S3300000x67, .f32⟩ : BufTy).Contents (Elt F)),
    StableHlo.unary main_v30 main_v38 (broadcastInDim S3300000x1 ![0] bcast_S3300000_S3300000x1_0 : (⟨S3300000, .f32⟩ : BufTy).Contents (Elt F) → (⟨S3300000x1, .f32⟩ : BufTy).Contents (Elt F)),
    StableHlo.unary main_v38 main_v39 (broadcastInDim S3300000x67 ![0, 1] bcast_S3300000x1_S3300000x67_0_1 : (⟨S3300000x1, .f32⟩ : BufTy).Contents (Elt F) → (⟨S3300000x67, .f32⟩ : BufTy).Contents (Elt F)),
    StableHlo.binary main_v37 main_v39 main_v40 (mulf : (⟨S3300000x67, .f32⟩ : BufTy).Contents (Elt F) → (⟨S3300000x67, .f32⟩ : BufTy).Contents (Elt F) → (⟨S3300000x67, .f32⟩ : BufTy).Contents (Elt F)),
    StableHlo.nullary main_cst_8 (constant S_ .f32 0x00000000#32),
    StableHlo.unary main_cst_8 main_v41 (broadcastInDim S100000x67 ![] bcast_S_S100000x67 : (⟨S_, .f32⟩ : BufTy).Contents (Elt F) → (⟨S100000x67, .f32⟩ : BufTy).Contents (Elt F)),
    StableHlo.unary main_v7 main_v42 (broadcastInDim S3300000x1 ![0] bcast_S3300000_S3300000x1_0 : (⟨S3300000, .i32⟩ : BufTy).Contents (Elt F) → (⟨S3300000x1, .i32⟩ : BufTy).Contents (Elt F)),
    StableHlo.ternary main_v41 main_v42 main_v40 main_v43 ((fun x i u => Host.scatterAdd scatter_S100000x67_S3300000x1_S3300000x67_1_0_0_1 x i u) : (⟨S100000x67, .f32⟩ : BufTy).Contents (Elt F) → (⟨S3300000x1, .i32⟩ : BufTy).Contents (Elt F) → (⟨S3300000x67, .f32⟩ : BufTy).Contents (Elt F) → (⟨S100000x67, .f32⟩ : BufTy).Contents (Elt F)),
    StableHlo.unary main_arg3 main_v44 (broadcastInDim S1x67 ![1] bcast_S67_S1x67_1 : (⟨S67, .f32⟩ : BufTy).Contents (Elt F) → (⟨S1x67, .f32⟩ : BufTy).Contents (Elt F)),
    StableHlo.unary main_v44 main_v45 (broadcastInDim S100000x67 ![0, 1] bcast_S1x67_S100000x67_0_1 : (⟨S1x67, .f32⟩ : BufTy).Contents (Elt F) → (⟨S100000x67, .f32⟩ : BufTy).Contents (Elt F)),
    StableHlo.binary main_v43 main_v45 main_v46 (addf : (⟨S100000x67, .f32⟩ : BufTy).Contents (Elt F) → (⟨S100000x67, .f32⟩ : BufTy).Contents (Elt F) → (⟨S100000x67, .f32⟩ : BufTy).Contents (Elt F)) ]

/-- The leaky rectifier: the slope as a scalar, then keep a non-negative entry and scale a negative one. -/
abbrev s2 : List (HloOp τ sig (Elt F)) :=
  [ StableHlo.nullary main_cst_9 (constant S_ .f32 0x3C23D70A#32),
    StableHlo.TRef.nullary main_call1.cst (constant S_ .f32 0x00000000#32),
    StableHlo.TRef.unary main_call1.cst main_call1.v0 (broadcastInDim S100000x67 ![] bcast_S_S100000x67),
    StableHlo.TRef.binary (.of main_v46 : StableHlo.TRef sig ⟨S100000x67, .f32⟩) main_call1.v0 main_call1.v1 (cmpf .oge),
    StableHlo.TRef.unary (.of main_cst_9 : StableHlo.TRef sig ⟨S_, .f32⟩) main_call1.v2 id,
    StableHlo.TRef.unary main_call1.v2 main_call1.v3 (broadcastInDim S100000x67 ![] bcast_S_S100000x67),
    StableHlo.TRef.binary main_call1.v3 (.of main_v46 : StableHlo.TRef sig ⟨S100000x67, .f32⟩) main_call1.v4 mulf,
    StableHlo.TRef.ternary main_call1.v1 (.of main_v46 : StableHlo.TRef sig ⟨S100000x67, .f32⟩) main_call1.v4 main_call1.call0.v0 select ]

/-- The second product: the hidden features times the second weight matrix. -/
abbrev s3 : List (HloOp τ sig (Elt F)) :=
  [ StableHlo.binary main_v47 main_arg4 main_v48 ((fun l r => Host.dotGeneral dot_S100000x67_S67x7_S100000x7_1_0_0_1_n_n none l r) : (⟨S100000x67, .f32⟩ : BufTy).Contents (Elt F) → (⟨S67x7, .f32⟩ : BufTy).Contents (Elt F) → (⟨S100000x7, .f32⟩ : BufTy).Contents (Elt F)) ]

/-- The second convolution: the same edge data computed again, now on seven features. -/
abbrev s4 : List (HloOp τ sig (Elt F)) :=
  [ StableHlo.nullary main_v49 (iotaInDim S100000 32 0),
    StableHlo.unary main_arg1 main_v50 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v50 main_v51 rfl shapeCasts_S1x3200000_S3200000,
    StableHlo.binary main_v51 main_v49 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v53 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v53 main_v54 rfl shapeCasts_S1x3200000_S3200000,
    StableHlo.binary main_v54 main_v49 main_v55 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst_10 (constant S_ .f32 0x3F800000#32),
    StableHlo.unary main_cst_10 main_v56 (broadcastInDim S3300000 ![] bcast_S_S3300000 : (⟨S_, .f32⟩ : BufTy).Contents (Elt F) → (⟨S3300000, .f32⟩ : BufTy).Contents (Elt F)),
    StableHlo.nullary main_cst_11 (constant S_ .f32 0x00000000#32),
    StableHlo.unary main_cst_11 main_v57 (broadcastInDim S100000 ![] bcast_S_S100000 : (⟨S_, .f32⟩ : BufTy).Contents (Elt F) → (⟨S100000, .f32⟩ : BufTy).Contents (Elt F)),
    StableHlo.unary main_v55 main_v58 (broadcastInDim S3300000x1 ![0] bcast_S3300000_S3300000x1_0 : (⟨S3300000, .i32⟩ : BufTy).Contents (Elt F) → (⟨S3300000x1, .i32⟩ : BufTy).Contents (Elt F)),
    StableHlo.ternary main_v57 main_v58 main_v56 main_v59 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_12 (constant S_ .f32 0x00000000#32),
    StableHlo.unary main_cst_12 main_v60 (broadcastInDim S100000 ![] bcast_S_S100000 : (⟨S_, .f32⟩ : BufTy).Contents (Elt F) → (⟨S100000, .f32⟩ : BufTy).Contents (Elt F)),
    StableHlo.binary main_v59 main_v60 main_v61 (cmpf .ogt : (⟨S100000, .f32⟩ : BufTy).Contents (Elt F) → (⟨S100000, .f32⟩ : BufTy).Contents (Elt F) → (⟨S100000, .i1⟩ : BufTy).Contents (Elt F)),
    StableHlo.unary main_v59 main_v62 (Host.rsqrt : (⟨S100000, .f32⟩ : BufTy).Contents (Elt F) → (⟨S100000, .f32⟩ : BufTy).Contents (Elt F)),
    StableHlo.nullary main_cst_13 (constant S_ .f32 0x00000000#32),
    StableHlo.TRef.unary (.of main_cst_13 : StableHlo.TRef sig ⟨S_, .f32⟩) main_call2.v0 (broadcastInDim S100000 ![] bcast_S_S100000),
    StableHlo.TRef.ternary (.of main_v61 : StableHlo.TRef sig ⟨S100000, .i1⟩) (.of main_v62 : StableHlo.TRef sig ⟨S100000, .f32⟩) main_call2.v0 main_call2.v1 select,
    StableHlo.nullary main_c_14 (constantI S_ 32 0#32),
    StableHlo.unary main_c_14 main_v64 (broadcastInDim S3300000 ![] bcast_S_S3300000 : (⟨S_, .i32⟩ : BufTy).Contents (Elt F) → (⟨S3300000, .i32⟩ : BufTy).Contents (Elt F)),
    StableHlo.binary main_v52 main_v64 main_v65 (cmpi .slt : (⟨S3300000, .i32⟩ : BufTy).Contents (Elt F) → (⟨S3300000, .i32⟩ : BufTy).Contents (Elt F) → (⟨S3300000, .i1⟩ : BufTy).Contents (Elt F)),
    StableHlo.nullary main_c_15 (constantI S_ 32 100000#32),
    StableHlo.unary main_c_15 main_v66 (broadcastInDim S3300000 ![] bcast_S_S3300000 : (⟨S_, .i32⟩ : BufTy).Contents (Elt F) → (⟨S3300000, .i32⟩ : BufTy).Contents (Elt F)),
    StableHlo.binary main_v52 main_v66 main_v67 (addi : (⟨S3300000, .i32⟩ : BufTy).Contents (Elt F) → (⟨S3300000, .i32⟩ : BufTy).Contents (Elt F) → (⟨S3300000, .i32⟩ : BufTy).Contents (Elt F)),
    StableHlo.ternary main_v65 main_v67 main_v52 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v68 main_v69 (broadcastInDim S3300000x1 ![0] bcast_S3300000_S3300000x1_0 : (⟨S3300000, .i32⟩ : BufTy).Contents (Elt F) → (⟨S3300000x1, .i32⟩ : BufTy).Contents (Elt F)),
    StableHlo.binary main_v63 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_16 (constantI S_ 32 0#32),
    StableHlo.unary main_c_16 main_v71 (broadcastInDim S3300000 ![] bcast_S_S3300000 : (⟨S_, .i32⟩ : BufTy).Contents (Elt F) → (⟨S3300000, .i32⟩ : BufTy).Contents (Elt F)),
    StableHlo.binary main_v55 main_v71 main_v72 (cmpi .slt : (⟨S3300000, .i32⟩ : BufTy).Contents (Elt F) → (⟨S3300000, .i32⟩ : BufTy).Contents (Elt F) → (⟨S3300000, .i1⟩ : BufTy).Contents (Elt F)),
    StableHlo.nullary main_c_17 (constantI S_ 32 100000#32),
    StableHlo.unary main_c_17 main_v73 (broadcastInDim S3300000 ![] bcast_S_S3300000 : (⟨S_, .i32⟩ : BufTy).Contents (Elt F) → (⟨S3300000, .i32⟩ : BufTy).Contents (Elt F)),
    StableHlo.binary main_v55 main_v73 main_v74 (addi : (⟨S3300000, .i32⟩ : BufTy).Contents (Elt F) → (⟨S3300000, .i32⟩ : BufTy).Contents (Elt F) → (⟨S3300000, .i32⟩ : BufTy).Contents (Elt F)),
    StableHlo.ternary main_v72 main_v74 main_v55 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v75 main_v76 (broadcastInDim S3300000x1 ![0] bcast_S3300000_S3300000x1_0 : (⟨S3300000, .i32⟩ : BufTy).Contents (Elt F) → (⟨S3300000x1, .i32⟩ : BufTy).Contents (Elt F)),
    StableHlo.binary main_v63 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v70 main_v77 main_v78 (mulf : (⟨S3300000, .f32⟩ : BufTy).Contents (Elt F) → (⟨S3300000, .f32⟩ : BufTy).Contents (Elt F) → (⟨S3300000, .f32⟩ : BufTy).Contents (Elt F)),
    StableHlo.nullary main_c_18 (constantI S_ 32 0#32),
    StableHlo.unary main_c_18 main_v79 (broadcastInDim S3300000 ![] bcast_S_S3300000 : (⟨S_, .i32⟩ : BufTy).Contents (Elt F) → (⟨S3300000, .i32⟩ : BufTy).Contents (Elt F)),
    StableHlo.binary main_v52 main_v79 main_v80 (cmpi .slt : (⟨S3300000, .i32⟩ : BufTy).Contents (Elt F) → (⟨S3300000, .i32⟩ : BufTy).Contents (Elt F) → (⟨S3300000, .i1⟩ : BufTy).Contents (Elt F)),
    StableHlo.nullary main_c_19 (constantI S_ 32 100000#32),
    StableHlo.unary main_c_19 main_v81 (broadcastInDim S3300000 ![] bcast_S_S3300000 : (⟨S_, .i32⟩ : BufTy).Contents (Elt F) → (⟨S3300000, .i32⟩ : BufTy).Contents (Elt F)),
    StableHlo.binary main_v52 main_v81 main_v82 (addi : (⟨S3300000, .i32⟩ : BufTy).Contents (Elt F) → (⟨S3300000, .i32⟩ : BufTy).Contents (Elt F) → (⟨S3300000, .i32⟩ : BufTy).Contents (Elt F)),
    StableHlo.ternary main_v80 main_v82 main_v52 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v83 main_v84 (broadcastInDim S3300000x1 ![0] bcast_S3300000_S3300000x1_0 : (⟨S3300000, .i32⟩ : BufTy).Contents (Elt F) → (⟨S3300000x1, .i32⟩ : BufTy).Contents (Elt F)),
    StableHlo.binary main_v48 main_v84 main_v85 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    StableHlo.unary main_v78 main_v86 (broadcastInDim S3300000x1 ![0] bcast_S3300000_S3300000x1_0 : (⟨S3300000, .f32⟩ : BufTy).Contents (Elt F) → (⟨S3300000x1, .f32⟩ : BufTy).Contents (Elt F)),
    StableHlo.unary main_v86 main_v87 (broadcastInDim S3300000x7 ![0, 1] bcast_S3300000x1_S3300000x7_0_1 : (⟨S3300000x1, .f32⟩ : BufTy).Contents (Elt F) → (⟨S3300000x7, .f32⟩ : BufTy).Contents (Elt F)),
    StableHlo.binary main_v85 main_v87 main_v88 (mulf : (⟨S3300000x7, .f32⟩ : BufTy).Contents (Elt F) → (⟨S3300000x7, .f32⟩ : BufTy).Contents (Elt F) → (⟨S3300000x7, .f32⟩ : BufTy).Contents (Elt F)),
    StableHlo.nullary main_cst_20 (constant S_ .f32 0x00000000#32),
    StableHlo.unary main_cst_20 main_v89 (broadcastInDim S100000x7 ![] bcast_S_S100000x7 : (⟨S_, .f32⟩ : BufTy).Contents (Elt F) → (⟨S100000x7, .f32⟩ : BufTy).Contents (Elt F)),
    StableHlo.unary main_v55 main_v90 (broadcastInDim S3300000x1 ![0] bcast_S3300000_S3300000x1_0 : (⟨S3300000, .i32⟩ : BufTy).Contents (Elt F) → (⟨S3300000x1, .i32⟩ : BufTy).Contents (Elt F)),
    StableHlo.ternary main_v89 main_v90 main_v88 main_v91 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)),
    StableHlo.unary main_arg5 main_v92 (broadcastInDim S1x7 ![1] bcast_S7_S1x7_1 : (⟨S7, .f32⟩ : BufTy).Contents (Elt F) → (⟨S1x7, .f32⟩ : BufTy).Contents (Elt F)),
    StableHlo.unary main_v92 main_v93 (broadcastInDim S100000x7 ![0, 1] bcast_S1x7_S100000x7_0_1 : (⟨S1x7, .f32⟩ : BufTy).Contents (Elt F) → (⟨S100000x7, .f32⟩ : BufTy).Contents (Elt F)),
    StableHlo.binary main_v91 main_v93 main_v94 (addf : (⟨S100000x7, .f32⟩ : BufTy).Contents (Elt F) → (⟨S100000x7, .f32⟩ : BufTy).Contents (Elt F) → (⟨S100000x7, .f32⟩ : BufTy).Contents (Elt F)) ]

/-- The row-wise log-softmax: the row maximum, the shifted rows, the log of the row sums of exponentials, their difference. -/
abbrev s5 : List (HloOp τ sig (Elt F)) :=
  [ StableHlo.TRef.nullary main_call3.cst (constant S_ .f32 0xFF800000#32),
    StableHlo.TRef.binary (.of main_v94 : StableHlo.TRef sig ⟨S100000x7, .f32⟩) main_call3.cst main_call3.v0 (fun x v => Host.reduce FloatOps.maximumf x v reducesTo_S100000x7_S100000_d1 h_S_),
    StableHlo.TRef.nullary main_call3.cst_0 (constant S_ .f32 0xFF800000#32),
    StableHlo.TRef.unary main_call3.cst_0 main_call3.v1 (broadcastInDim S100000 ![] bcast_S_S100000),
    StableHlo.TRef.binary main_call3.v1 main_call3.v0 main_call3.v2 maximumf,
    StableHlo.TRef.unary main_call3.v2 main_call3.v3 (broadcastInDim S100000x1 ![0] bcast_S100000_S100000x1_0),
    StableHlo.TRef.unary main_call3.v3 main_call3.v4 (broadcastInDim S100000x7 ![0, 1] bcast_S100000x1_S100000x7_0_1),
    StableHlo.TRef.binary (.of main_v94 : StableHlo.TRef sig ⟨S100000x7, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S100000x7_S100000_d1 h_S_),
    StableHlo.TRef.unary main_call3.v7 main_call3.v8 (broadcastInDim S100000x1 ![0] bcast_S100000_S100000x1_0),
    StableHlo.TRef.unary main_call3.v8 main_call3.v9 Host.log,
    StableHlo.TRef.unary main_call3.v9 main_call3.v10 (broadcastInDim S100000x7 ![0, 1] bcast_S100000x1_S100000x7_0_1),
    StableHlo.TRef.binary main_call3.v5 main_call3.v10 main_call3.v11 subf ]

/-- The whole program: the six stretches in order. -/
abbrev ops : List (HloOp τ sig (Elt F)) := (s0 ++ (s1 ++ s2)) ++ (s3 ++ (s4 ++ s5))

set_option maxRecDepth 8192 in
set_option maxHeartbeats 4000000 in
/-- The first half of the program is the first three stretches run in order: the called functions' bodies stand
    at their call sites, and sequencing is re-associated to one chain. -/
theorem part0_eq (c : Dev nD) : main_part0 (F := F) c = seq (s0 ++ (s1 ++ s2)) := by
  simp only [main_part0, fn_where.body, fn_where_0.body, fn_leaky_relu.body, s0, s1, s2, List.cons_append, List.nil_append, seq, bind_assoc, pure_bind]

set_option maxRecDepth 8192 in
set_option maxHeartbeats 4000000 in
/-- The second half is the last three stretches run in order. -/
theorem part1_eq (c : Dev nD) : main_part1 (F := F) c = seq (s3 ++ (s4 ++ s5)) := by
  simp only [main_part1, fn_where.body, fn_log_softmax.body, s3, s4, s5, List.cons_append, List.nil_append, seq, bind_assoc, pure_bind]

/-- The program is the straight line of its operations. -/
theorem main_eq (c : Dev nD) : main (F := F) c = seq ops := by
  show (main_part0 (F := F) c >>= fun _ => main_part1 (F := F) c) = seq ops
  rw [ops, seq_append, part0_eq, part1_eq]

/-! ## Side conditions: every operation touches TensorCore buffers only, and determines its result -/

set_option maxRecDepth 8192 in
theorem s0_sub : (s0 : List (HloOp τ sig (Elt F))).Forall fun op => op.bufs ⊆ tcRefs τ sig :=
  binary_bufs_sub ..

set_option maxRecDepth 8192 in
theorem s0_fresh : ∀ op ∈ (s0 : List (HloOp τ sig (Elt F))), op.fresh = ∅ := by
  intro _ h; (repeat (cases h with | head => rfl | tail _ h => ?_)); exact nomatch h

set_option maxRecDepth 8192 in
theorem s1_sub : (s1 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
theorem s1_fresh : ∀ op ∈ (s1 : List (HloOp τ sig (Elt F))), op.fresh = ∅ := by
  intro _ h; (repeat (cases h with | head => rfl | tail _ h => ?_)); exact nomatch h

set_option maxRecDepth 8192 in
theorem s2_sub : (s2 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub ..⟩

set_option maxRecDepth 8192 in
theorem s2_fresh : ∀ op ∈ (s2 : List (HloOp τ sig (Elt F))), op.fresh = ∅ := by
  intro _ h; (repeat (cases h with | head => rfl | tail _ h => ?_)); exact nomatch h

set_option maxRecDepth 8192 in
theorem s3_sub : (s3 : List (HloOp τ sig (Elt F))).Forall fun op => op.bufs ⊆ tcRefs τ sig :=
  binary_bufs_sub ..

set_option maxRecDepth 8192 in
theorem s3_fresh : ∀ op ∈ (s3 : List (HloOp τ sig (Elt F))), op.fresh = ∅ := by
  intro _ h; (repeat (cases h with | head => rfl | tail _ h => ?_)); exact nomatch h

set_option maxRecDepth 8192 in
theorem s4_sub : (s4 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
theorem s4_fresh : ∀ op ∈ (s4 : List (HloOp τ sig (Elt F))), op.fresh = ∅ := by
  intro _ h; (repeat (cases h with | head => rfl | tail _ h => ?_)); exact nomatch h

set_option maxRecDepth 8192 in
theorem s5_sub : (s5 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
theorem s5_fresh : ∀ op ∈ (s5 : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  List.forall_iff_forall_mem.mpr fun op h => by
    simp only [ops, List.mem_append] at h
    rcases h with (h | h | h) | (h | h | h)
    exacts [List.forall_iff_forall_mem.mp s0_sub op h, List.forall_iff_forall_mem.mp s1_sub op h, List.forall_iff_forall_mem.mp s2_sub op h,
      List.forall_iff_forall_mem.mp s3_sub op h, List.forall_iff_forall_mem.mp s4_sub op h, List.forall_iff_forall_mem.mp s5_sub op h]

theorem ops_fresh : ∀ op ∈ (ops : List (HloOp τ sig (Elt F))), op.fresh = ∅ := by
  intro op h
  simp only [ops, List.mem_append] at h
  rcases h with (h | h | h) | (h | h | h)
  exacts [s0_fresh op h, s1_fresh op h, s2_fresh op h, s3_fresh op h, s4_fresh op h, s5_fresh op h]

theorem scopedRefs_eq : (Finset.univ.filter fun b : Ref sig .tc => b.isScoped) = ∅ := by decide
theorem scopedSems_eq : (Finset.univ.filter fun sm : SemLoc sig => sm.isScoped .tc) = ∅ := by decide

/-! ## What each stretch leaves alone: a buffer it does not write keeps its contents -/

/-- Each operation writes exactly one buffer, and that buffer is in its stretch's list. -/
local macro "written_here" : tactic =>
  `(tactic| (simp only [nullary_writes, unary_writes, binary_writes, ternary_writes, reshape_writes, Finset.singleton_subset_iff,
      List.mem_toFinset]; exact List.mem_map_of_mem (by decide)))

/-- The buffers stretch 0 writes. -/
abbrev s0_W : List (Ref sig .tc) := [main_v0]

set_option maxRecDepth 8192 in
theorem s0_writes : (s0 : List (HloOp τ sig (Elt F))).Forall fun op => op.writes ⊆ (s0_W.map (Proc.devRef (τ := τ) .tc)).toFinset := by
  simp only [s0, List.Forall]
  exact (by written_here)

theorem s0_keep (V : Valuation τ sig (Elt F)) (r : Ref sig .tc) (h : r ∉ s0_W) :
    after s0 V (Proc.devRef .tc r) = V (Proc.devRef .tc r) :=
  after_of_writes_sub s0 V s0_writes h

/-- The buffers stretch 1 writes. -/
abbrev s1_W : List (Ref sig .tc) := [main_v1, main_v2, main_v3, main_v4, main_v5, main_v6, main_v7, main_cst, main_v8, main_cst_0, main_v9, main_v10, main_v11, main_cst_1, main_v12, main_v13, main_v14, main_cst_2, main_call0_v0, main_v15, main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46]

set_option maxRecDepth 8192 in
theorem s1_writes : (s1 : List (HloOp τ sig (Elt F))).Forall fun op => op.writes ⊆ (s1_W.map (Proc.devRef (τ := τ) .tc)).toFinset := by
  simp only [s1, List.Forall]
  exact ⟨(by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here)⟩

theorem s1_keep (V : Valuation τ sig (Elt F)) (r : Ref sig .tc) (h : r ∉ s1_W) :
    after s1 V (Proc.devRef .tc r) = V (Proc.devRef .tc r) :=
  after_of_writes_sub s1 V s1_writes h

/-- The buffers stretch 2 writes. -/
abbrev s2_W : List (Ref sig .tc) := [main_cst_9, main_call1_cst, main_call1_v0, main_call1_v1, main_call1_v2, main_call1_v3, main_call1_v4, main_v47]

set_option maxRecDepth 8192 in
theorem s2_writes : (s2 : List (HloOp τ sig (Elt F))).Forall fun op => op.writes ⊆ (s2_W.map (Proc.devRef (τ := τ) .tc)).toFinset := by
  simp only [s2, List.Forall]
  exact ⟨(by written_here), (by written_here), (by written_here), (by written_here), (by written_here), (by written_here), (by written_here), (by written_here)⟩

theorem s2_keep (V : Valuation τ sig (Elt F)) (r : Ref sig .tc) (h : r ∉ s2_W) :
    after s2 V (Proc.devRef .tc r) = V (Proc.devRef .tc r) :=
  after_of_writes_sub s2 V s2_writes h

/-- The buffers stretch 3 writes. -/
abbrev s3_W : List (Ref sig .tc) := [main_v48]

set_option maxRecDepth 8192 in
theorem s3_writes : (s3 : List (HloOp τ sig (Elt F))).Forall fun op => op.writes ⊆ (s3_W.map (Proc.devRef (τ := τ) .tc)).toFinset := by
  simp only [s3, List.Forall]
  exact (by written_here)

theorem s3_keep (V : Valuation τ sig (Elt F)) (r : Ref sig .tc) (h : r ∉ s3_W) :
    after s3 V (Proc.devRef .tc r) = V (Proc.devRef .tc r) :=
  after_of_writes_sub s3 V s3_writes h

/-- The buffers stretch 4 writes. -/
abbrev s4_W : List (Ref sig .tc) := [main_v49, main_v50, main_v51, main_v52, main_v53, main_v54, main_v55, main_cst_10, main_v56, main_cst_11, main_v57, main_v58, main_v59, main_cst_12, main_v60, main_v61, main_v62, main_cst_13, main_call2_v0, main_v63, main_c_14, main_v64, main_v65, main_c_15, main_v66, main_v67, main_v68, main_v69, main_v70, main_c_16, main_v71, main_v72, main_c_17, main_v73, main_v74, main_v75, main_v76, main_v77, main_v78, main_c_18, main_v79, main_v80, main_c_19, main_v81, main_v82, main_v83, main_v84, main_v85, main_v86, main_v87, main_v88, main_cst_20, main_v89, main_v90, main_v91, main_v92, main_v93, main_v94]

set_option maxRecDepth 8192 in
theorem s4_writes : (s4 : List (HloOp τ sig (Elt F))).Forall fun op => op.writes ⊆ (s4_W.map (Proc.devRef (τ := τ) .tc)).toFinset := by
  simp only [s4, List.Forall]
  exact ⟨(by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here), (by written_here)⟩

theorem s4_keep (V : Valuation τ sig (Elt F)) (r : Ref sig .tc) (h : r ∉ s4_W) :
    after s4 V (Proc.devRef .tc r) = V (Proc.devRef .tc r) :=
  after_of_writes_sub s4 V s4_writes h

/-- The buffers stretch 5 writes. -/
abbrev s5_W : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v95]

set_option maxRecDepth 8192 in
theorem s5_writes : (s5 : List (HloOp τ sig (Elt F))).Forall fun op => op.writes ⊆ (s5_W.map (Proc.devRef (τ := τ) .tc)).toFinset := by
  simp only [s5, List.Forall]
  exact ⟨(by written_here), (by written_here), (by written_here), (by written_here), (by written_here), (by written_here), (by written_here), (by written_here), (by written_here), (by written_here), (by written_here), (by written_here), (by written_here), (by written_here), (by written_here)⟩

theorem s5_keep (V : Valuation τ sig (Elt F)) (r : Ref sig .tc) (h : r ∉ s5_W) :
    after s5 V (Proc.devRef .tc r) = V (Proc.devRef .tc r) :=
  after_of_writes_sub s5 V s5_writes h

/-- Running two lists one after the other is running their concatenation. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- A buffer no stretch writes keeps its contents through the whole program. -/
theorem ops_keep (V : Valuation τ sig (Elt F)) (r : Ref sig .tc) (h0 : r ∉ s0_W) (h1 : r ∉ s1_W) (h2 : r ∉ s2_W) (h3 : r ∉ s3_W)
    (h4 : r ∉ s4_W) (h5 : r ∉ s5_W) : after ops V (Proc.devRef .tc r) = V (Proc.devRef .tc r) := by
  simp only [ops, after_concat]
  rw [s5_keep _ r h5, s4_keep _ r h4, s3_keep _ r h3, s2_keep _ r h2, s1_keep _ r h1, s0_keep _ r h0]

/-! ## What each stretch computes, from any contents

The equations hold whatever the gathers, scatter-adds, reductions and elementwise transcendental functions
compute: both sides apply them to the same operands. -/

/-- Reading a value back through the typed reference it was written through gives the value. -/
theorem ofBuf_toBuf {T : BufTy} (t : StableHlo.TRef sig T) (v : T.Contents (Elt F)) : t.ofBuf (t.toBuf v) = v := by
  obtain ⟨r, h, hd, hu⟩ := t
  subst h
  rfl

attribute [local irreducible] Host.gather Host.scatterAdd Host.reduce Host.reduceAdd Host.exp Host.log Host.rsqrt

/-- Stretch 0 leaves the product of the features and the first weights in its result buffer. -/
theorem s0_v0 (V : Valuation τ sig (Elt F)) :
    after s0 V (main_v0 : DevRef τ sig) = Gcn.dot1 (V (main_arg0 : DevRef τ sig)) (V (main_arg2 : DevRef τ sig)) := by
  simp only [s0]
  after_results_simp
  rfl

set_option maxRecDepth 16384 in
set_option maxHeartbeats 6000000 in
/-- Stretch 1 leaves the first convolution of what it finds in the product's buffer, over the edge table and the first bias. -/
theorem s1_v46 (V : Valuation τ sig (Elt F)) :
    after s1 V (main_v46 : DevRef τ sig) = Gcn.conv67 (V (main_v0 : DevRef τ sig)) (V (main_arg1 : DevRef τ sig)) (V (main_arg3 : DevRef τ sig)) := by
  simp only [s1]
  after_results_simp
  rfl

set_option maxRecDepth 16384 in
set_option maxHeartbeats 1000000 in
/-- Stretch 2 leaves the leaky rectifier of the convolution's buffer. -/
theorem s2_v47 (V : Valuation τ sig (Elt F)) :
    after s2 V (main_v47 : DevRef τ sig) = Gcn.leaky (V (main_v46 : DevRef τ sig)) := by
  simp only [s2]
  after_results_simp
  rfl

/-- Stretch 3 leaves the product of the hidden features and the second weights. -/
theorem s3_v48 (V : Valuation τ sig (Elt F)) :
    after s3 V (main_v48 : DevRef τ sig) = Gcn.dot2 (V (main_v47 : DevRef τ sig)) (V (main_arg4 : DevRef τ sig)) := by
  simp only [s3]
  after_results_simp
  rfl

set_option maxRecDepth 16384 in
set_option maxHeartbeats 6000000 in
/-- Stretch 4 leaves the second convolution, over the edge table and the second bias. -/
theorem s4_v94 (V : Valuation τ sig (Elt F)) :
    after s4 V (main_v94 : DevRef τ sig) = Gcn.conv7 (V (main_v48 : DevRef τ sig)) (V (main_arg1 : DevRef τ sig)) (V (main_arg5 : DevRef τ sig)) := by
  simp only [s4]
  after_results_simp
  rfl

set_option maxRecDepth 16384 in
set_option maxHeartbeats 2000000 in
/-- Stretch 5 leaves the row-wise log-softmax of the second convolution's buffer: each intermediate value is read back exactly as written, so only the arithmetic is left to compare. -/
theorem s5_v95 (V : Valuation τ sig (Elt F)) :
    after s5 V (main_v95 : DevRef τ sig) = Gcn.logSoftmax (V (main_v94 : DevRef τ sig)) := by
  simp only [s5]
  after_results_simp
  simp only [ofBuf_toBuf]
  unfold Gcn.logSoftmax Gcn.rowMax Gcn.rowLse
  rfl

/-- The whole program leaves the model of the six arguments in the result buffer: the stretches compose, each
    reading what the earlier ones wrote and the arguments, which none of them writes. -/
theorem ops_v95 (V : Valuation τ sig (Elt F)) :
    after ops V (main_v95 : DevRef τ sig) = Gcn.model (V (main_arg0 : DevRef τ sig)) (V (main_arg1 : DevRef τ sig)) (V (main_arg2 : DevRef τ sig)) (V (main_arg3 : DevRef τ sig)) (V (main_arg4 : DevRef τ sig)) (V (main_arg5 : DevRef τ sig)) := by
  simp only [ops, after_concat]
  rw [s5_v95, s4_v94, s3_v48,
    s3_keep _ main_arg1 (by decide), s3_keep _ main_arg5 (by decide),
    s2_v47, s2_keep _ main_arg4 (by decide), s2_keep _ main_arg1 (by decide), s2_keep _ main_arg5 (by decide),
    s1_v46, s1_keep _ main_arg4 (by decide), s1_keep _ main_arg1 (by decide), s1_keep _ main_arg5 (by decide),
    s0_v0, s0_keep _ main_arg1 (by decide), s0_keep _ main_arg3 (by decide), s0_keep _ main_arg4 (by decide), s0_keep _ main_arg5 (by decide)]
  rfl

/-! ## The run -/

/-- Whatever the float arithmetic, the device and the starting memory: with all counters at zero, every weakly
    fair execution of the program ends, and it ends with the result buffer holding the model of the six arguments as
    they were at the start, the arguments themselves untouched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = Gcn.model (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (ops_v95 _),
      (h c main_arg0).trans (ops_keep _ main_arg0 (by decide) (by decide) (by decide) (by decide) (by decide) (by decide)),
      (h c main_arg1).trans (ops_keep _ main_arg1 (by decide) (by decide) (by decide) (by decide) (by decide) (by decide)),
      (h c main_arg2).trans (ops_keep _ main_arg2 (by decide) (by decide) (by decide) (by decide) (by decide) (by decide)),
      (h c main_arg3).trans (ops_keep _ main_arg3 (by decide) (by decide) (by decide) (by decide) (by decide) (by decide)),
      (h c main_arg4).trans (ops_keep _ main_arg4 (by decide) (by decide) (by decide) (by decide) (by decide) (by decide)),
      (h c main_arg5).trans (ops_keep _ main_arg5 (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.lean ====
/-
  A two-layer graph convolution with a row-wise log-softmax, as a Pallas kernel program against its plain
  reference: both compute, over the extended reals, ONE composition of six stages of their argument arrays

      log_softmax (conv7 (leaky (conv67 (x W1)) W2)),

  where a convolution gathers the source rows of the edge list (self-loops appended), weighs each by the inverse
  square roots of the endpoint degrees, scatter-adds at the targets and adds a bias.

  The kernel program computes the two matrix products, the leaky rectifier and the log-softmax in four pipelined
  regions over row blocks, and the two convolutions on the host between them; the reference computes everything on
  the host. The convolutions are the same host operations on both sides and are never opened. The stages that
  differ in form agree on the extended reals without any finiteness hypothesis: a product accumulated into a zero
  block from operands whose change of float format is the identity is the same finite sum over the contracted
  axis as the host's product, row block by row block; the rectifier multiplies by the same float word on the other
  side (the product commutes); the log-softmax takes the same row maximum and the same row sum of exponentials
  (the reference's further maximum with minus infinity changes nothing). So the precondition is never used by the
  value claim; and the idealized kernel being the kernel's own text read over the extended reals, the fourth
  conjunct is trivial.
-/
import proofs.«148221_j25314537242763_1_alg».proof.Defs
import proofs.«148221_j25314537242763_1_alg».proof.Proof.Gen.Kernel
import proofs.«148221_j25314537242763_1_alg».proof.Proof.Gen.Kernel.Skeleton
import proofs.«148221_j25314537242763_1_alg».proof.Proof.Gen.Kernel.Launch
import proofs.«148221_j25314537242763_1_alg».proof.Proof.Gen.Kernel.Points
import proofs.«148221_j25314537242763_1_alg».proof.Proof.Gen.Kernel.Frame
import proofs.«148221_j25314537242763_1_alg».proof.Proof.Gen.KernelIdeal
import proofs.«148221_j25314537242763_1_alg».proof.Proof.Gen.KernelIdeal.Skeleton
import proofs.«148221_j25314537242763_1_alg».proof.Proof.Gen.KernelIdeal.Launch
import proofs.«148221_j25314537242763_1_alg».proof.Proof.Gen.KernelIdeal.Points
import proofs.«148221_j25314537242763_1_alg».proof.Proof.Gen.KernelIdeal.Frame
import proofs.«148221_j25314537242763_1_alg».proof.Proof.Gen.ReferenceIdeal
import proofs.«148221_j25314537242763_1_alg».proof.Proof.Gen.Pre_finite_inputs
import proofs.«148221_j25314537242763_1_alg».proof.Proof.GcnSpec
import proofs.«148221_j25314537242763_1_alg».proof.Proof.OutRun
import proofs.«148221_j25314537242763_1_alg».proof.Proof.OutValue
import proofs.«148221_j25314537242763_1_alg».proof.Proof.RefRun
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealized kernel is the kernel's own text read over the extended reals: there is nothing to preserve. -/
theorem preserves : Cert.preserves_Kernel_KernelIdeal := trivial

/-- Over the extended reals both programs end with the model of the argument arrays in their result buffer: the
    kernel's four regions and two host stretches compose to it stage by stage, the reference's host operations are
    it by definition, and arguments that agree give equal results. -/
theorem algebraic : Cert.algebraic_KernelIdeal_ReferenceIdeal := by
  intro m ρ m' ρ' _ hagree
  refine ⟨fun c => Cert.ReferenceIdeal.Gcn.model (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.OutValue.out_eq m ρ c), (h c).2⟩) (Cert.KernelIdeal.OutRun.run m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5⟩ := hagree c
    rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
